-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part10 {F : FTy → Type} [FloatOps F] (main_v168 : IVec S_ 1) (main_v169 : FVec F S2 .f32) (main_v170 : FVec F S2 .f32) : IVec S_ 1 :=
  let main_v171 : IVec S2 1 := cmpf .olt main_v169 main_v170
  let main_c_67 : IVec S_ 1 := constantI S_ 1 1#1
  let main_v172 : IVec S_ 1 := (fun x v => Host.reduce IntOp.andi x v reducesTo_S2_S_d0 h_S_) main_v171 main_c_67
  let main_v173 : IVec S_ 1 := andi main_v168 main_v172
  main_v173

def fn_part9 {F : FTy → Type} [FloatOps F] (main_arg32 : FVec F S64 .f32) (main_arg33 : FVec F S64 .f32) (main_arg34 : FVec F S64x2 .f32) (main_arg35 : FVec F S2 .f32) (main_v153 : IVec S_ 1) : IVec S_ 1 :=
  let main_v154 : FVec F S64 .f32 := Host.absf main_arg32
  let main_cst_60 : FVec F S_ .f32 := constant S_ .f32 0x7F800000#32
  let main_v155 : FVec F S64 .f32 := broadcastInDim S64 ![] bcast_S_S64 main_cst_60
  let main_v156 : IVec S64 1 := cmpf .olt main_v154 main_v155
  let main_c_61 : IVec S_ 1 := constantI S_ 1 1#1
  let main_v157 : IVec S_ 1 := (fun x v => Host.reduce IntOp.andi x v reducesTo_S64_S_d0 h_S_) main_v156 main_c_61
  let main_v158 : IVec S_ 1 := andi main_v153 main_v157
  let main_v159 : FVec F S64 .f32 := Host.absf main_arg33
  let main_cst_62 : FVec F S_ .f32 := constant S_ .f32 0x7F800000#32
  let main_v160 : FVec F S64 .f32 := broadcastInDim S64 ![] bcast_S_S64 main_cst_62
  let main_v161 : IVec S64 1 := cmpf .olt main_v159 main_v160
  let main_c_63 : IVec S_ 1 := constantI S_ 1 1#1
  let main_v162 : IVec S_ 1 := (fun x v => Host.reduce IntOp.andi x v reducesTo_S64_S_d0 h_S_) main_v161 main_c_63
  let main_v163 : IVec S_ 1 := andi main_v158 main_v162
  let main_v164 : FVec F S64x2 .f32 := Host.absf main_arg34
  let main_cst_64 : FVec F S_ .f32 := constant S_ .f32 0x7F800000#32
  let main_v165 : FVec F S64x2 .f32 := broadcastInDim S64x2 ![] bcast_S_S64x2 main_cst_64
  let main_v166 : IVec S64x2 1 := cmpf .olt main_v164 main_v165
  let main_c_65 : IVec S_ 1 := constantI S_ 1 1#1
  let main_v167 : IVec S_ 1 := (fun x v => Host.reduce IntOp.andi x v reducesTo_S64x2_S_d0_1 h_S_) main_v166 main_c_65
  let main_v168 : IVec S_ 1 := andi main_v163 main_v167
  let main_v169 : FVec F S2 .f32 := Host.absf main_arg35
  let main_cst_66 : FVec F S_ .f32 := constant S_ .f32 0x7F800000#32
  let main_v170 : FVec F S2 .f32 := broadcastInDim S2 ![] bcast_S_S2 main_cst_66
  fn_part10 (F := F) main_v168 main_v169 main_v170

def fn_part8 {F : FTy → Type} [FloatOps F] (main_arg29 : FVec F S64 .f32) (main_arg30 : FVec F S64 .f32) (main_arg31 : FVec F S64 .f32) (main_arg32 : FVec F S64 .f32) (main_arg33 : FVec F S64 .f32) (main_arg34 : FVec F S64x2 .f32) (main_arg35 : FVec F S2 .f32) (main_v133 : IVec S_ 1) (main_v136 : IVec S64x64 1) : IVec S_ 1 :=
  let main_c_53 : IVec S_ 1 := constantI S_ 1 1#1
  let main_v137 : IVec S_ 1 := (fun x v => Host.reduce IntOp.andi x v reducesTo_S64x64_S_d0_1 h_S_) main_v136 main_c_53
  let main_v138 : IVec S_ 1 := andi main_v133 main_v137
  let main_v139 : FVec F S64 .f32 := Host.absf main_arg29
  let main_cst_54 : FVec F S_ .f32 := constant S_ .f32 0x7F800000#32
  let main_v140 : FVec F S64 .f32 := broadcastInDim S64 ![] bcast_S_S64 main_cst_54
  let main_v141 : IVec S64 1 := cmpf .olt main_v139 main_v140
  let main_c_55 : IVec S_ 1 := constantI S_ 1 1#1
  let main_v142 : IVec S_ 1 := (fun x v => Host.reduce IntOp.andi x v reducesTo_S64_S_d0 h_S_) main_v141 main_c_55
  let main_v143 : IVec S_ 1 := andi main_v138 main_v142
  let main_v144 : FVec F S64 .f32 := Host.absf main_arg30
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S64 .f32 := Host.absf main_arg31
  let main_cst_58 : FVec F S_ .f32 := constant S_ .f32 0x7F800000#32
  let main_v150 : FVec F S64 .f32 := broadcastInDim S64 ![] bcast_S_S64 main_cst_58
  let main_v151 : IVec S64 1 := cmpf .olt main_v149 main_v150
  let main_c_59 : IVec S_ 1 := constantI S_ 1 1#1
  let main_v152 : IVec S_ 1 := (fun x v => Host.reduce IntOp.andi x v reducesTo_S64_S_d0 h_S_) main_v151 main_c_59
  let main_v153 : IVec S_ 1 := andi main_v148 main_v152
  fn_part9 (F := F) main_arg32 main_arg33 main_arg34 main_arg35 main_v153

def fn_part7 {F : FTy → Type} [FloatOps F] (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x2 .f32) (main_arg35 : FVec F S2 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x64 .f32 := Host.absf main_arg26
  let main_cst_48 : FVec F S_ .f32 := constant S_ .f32 0x7F800000#32
  let main_v125 : FVec F S128x64 .f32 := broadcastInDim S128x64 ![] bcast_S_S128x64 main_cst_48
  let main_v126 : IVec S128x64 1 := cmpf .olt main_v124 main_v125
  let main_c_49 : IVec S_ 1 := constantI S_ 1 1#1
  let main_v127 : IVec S_ 1 := (fun x v => Host.reduce IntOp.andi x v reducesTo_S128x64_S_d0_1 h_S_) main_v126 main_c_49
  let main_v128 : IVec S_ 1 := andi main_v123 main_v127
  let main_v129 : FVec F S64 .f32 := Host.absf main_arg27
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64x64 .f32 := Host.absf main_arg28
  let main_cst_52 : FVec F S_ .f32 := constant S_ .f32 0x7F800000#32
  let main_v135 : FVec F S64x64 .f32 := broadcastInDim S64x64 ![] bcast_S_S64x64 main_cst_52
  let main_v136 : IVec S64x64 1 := cmpf .olt main_v134 main_v135
  fn_part8 (F := F) main_arg29 main_arg30 main_arg31 main_arg32 main_arg33 main_arg34 main_arg35 main_v133 main_v136

def fn_part6 {F : FTy → Type} [FloatOps F] (main_arg22 : FVec F S128 .f32) (main_arg23 : FVec F S128 .f32) (main_arg24 : FVec F S128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x2 .f32) (main_arg35 : FVec F S2 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg25
  fn_part7 (F := F) main_arg26 main_arg27 main_arg28 main_arg29 main_arg30 main_arg31 main_arg32 main_arg33 main_arg34 main_arg35 main_v118 main_v119

def fn_part5 {F : FTy → Type} [FloatOps F] (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x2 .f32) (main_arg35 : FVec F S2 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg20
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_arg25 main_arg26 main_arg27 main_arg28 main_arg29 main_arg30 main_arg31 main_arg32 main_arg33 main_arg34 main_arg35 main_v98 main_v101 main_c_39

def fn_part4 {F : FTy → Type} [FloatOps F] (main_arg15 : FVec F S256 .f32) (main_arg16 : FVec F S256 .f32) (main_arg17 : FVec F S256 .f32) (main_arg18 : FVec F S256x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x2 .f32) (main_arg35 : FVec F S2 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x128 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg12 : FVec F S256x256 .f32) (main_arg13 : FVec F S256 .f32) (main_arg14 : FVec F S256 .f32) (main_arg15 : FVec F S256 .f32) (main_arg16 : FVec F S256 .f32) (main_arg17 : FVec F S256 .f32) (main_arg18 : FVec F S256x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x2 .f32) (main_arg35 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg8 : FVec F S128 .f32) (main_arg9 : FVec F S128 .f32) (main_arg10 : FVec F S128x256 .f32) (main_arg11 : FVec F S256 .f32) (main_arg12 : FVec F S256x256 .f32) (main_arg13 : FVec F S256 .f32) (main_arg14 : FVec F S256 .f32) (main_arg15 : FVec F S256 .f32) (main_arg16 : FVec F S256 .f32) (main_arg17 : FVec F S256 .f32) (main_arg18 : FVec F S256x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x2 .f32) (main_arg35 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128 .f32) (main_arg10 : FVec F S128x256 .f32) (main_arg11 : FVec F S256 .f32) (main_arg12 : FVec F S256x256 .f32) (main_arg13 : FVec F S256 .f32) (main_arg14 : FVec F S256 .f32) (main_arg15 : FVec F S256 .f32) (main_arg16 : FVec F S256 .f32) (main_arg17 : FVec F S256 .f32) (main_arg18 : FVec F S256x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x2 .f32) (main_arg35 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128x256 .f32) (main_arg11 : FVec F S256 .f32) (main_arg12 : FVec F S256x256 .f32) (main_arg13 : FVec F S256 .f32) (main_arg14 : FVec F S256 .f32) (main_arg15 : FVec F S256 .f32) (main_arg16 : FVec F S256 .f32) (main_arg17 : FVec F S256 .f32) (main_arg18 : FVec F S256x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x2 .f32) (main_arg35 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x128 : Shape := ⟨2, ![1, 128]⟩
abbrev S50000x128 : Shape := ⟨2, ![50000, 128]⟩
abbrev S2000x256 : Shape := ⟨2, ![2000, 256]⟩
abbrev S2000x128 : Shape := ⟨2, ![2000, 128]⟩
abbrev S800000x128 : Shape := ⟨2, ![800000, 128]⟩
abbrev S1x256 : Shape := ⟨2, ![1, 256]⟩
abbrev S1x64 : Shape := ⟨2, ![1, 64]⟩
abbrev S1x2 : Shape := ⟨2, ![1, 2]⟩
abbrev S50000x2 : Shape := ⟨2, ![50000, 2]⟩
abbrev S2000x2 : Shape := ⟨2, ![2000, 2]⟩
abbrev S2000x64 : Shape := ⟨2, ![2000, 64]⟩

abbrev nBuf : Space → Nat
  | .hbm => 125
  | .vmem => 50
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128x64, .f32⟩
  | .hbm, ⟨27, _⟩ => ⟨S64, .f32⟩
  | .hbm, ⟨28, _⟩ => ⟨S64x64, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64x2, .f32⟩
  | .hbm, ⟨35, _⟩ => ⟨S2, .f32⟩
  | .hbm, ⟨36, _⟩ => ⟨S1x800000, .i32⟩
  | .hbm, ⟨37, _⟩ => ⟨S800000, .i32⟩
  | .hbm, ⟨38, _⟩ => ⟨S1x800000, .i32⟩
  | .hbm, ⟨39, _⟩ => ⟨S800000, .i32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S50000x256, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x128, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S50000x256, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x256, .f32⟩
  | .hbm, ⟨91, _⟩ => ⟨S_, .f32⟩
  | .hbm, ⟨92, _⟩ => ⟨S50000x256, .f32⟩
  | .hbm, ⟨93, _⟩ => ⟨S800000x1, .i32⟩
  | .hbm, ⟨94, _⟩ => ⟨S50000x256, .f32⟩
  | .hbm, ⟨95, _⟩ => ⟨S50000x256, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S50000x128, .f32⟩
  | .hbm, ⟨103, _⟩ => ⟨S_, .i32⟩
  | .hbm, ⟨104, _⟩ => ⟨S800000, .i32⟩
  | .hbm, ⟨105, _⟩ => ⟨S800000, .i1⟩
  | .hbm, ⟨106, _⟩ => ⟨S_, .i32⟩
  | .hbm, ⟨107, _⟩ => ⟨S800000, .i32⟩
  | .hbm, ⟨108, _⟩ => ⟨S800000, .i32⟩
  | .hbm, ⟨109, _⟩ => ⟨S800000, .i32⟩
  | .hbm, ⟨110, _⟩ => ⟨S800000x1, .i32⟩
  | .hbm, ⟨111, _⟩ => ⟨S800000x128, .f32⟩
  | .hbm, ⟨112, _⟩ => ⟨S_, .f32⟩
  | .hbm, ⟨113, _⟩ => ⟨S50000x128, .f32⟩
  | .hbm, ⟨114, _⟩ => ⟨S800000x1, .i32⟩
  | .hbm, ⟨115, _⟩ => ⟨S50000x128, .f32⟩
  | .hbm, ⟨116, _⟩ => ⟨S50000x128, .f32⟩
  | .hbm, ⟨117, _⟩ => ⟨S1x64, .f32⟩
  | .hbm, ⟨118, _⟩ => ⟨S1x64, .f32⟩
  | .hbm, ⟨119, _⟩ => ⟨S1x64, .f32⟩
  | .hbm, ⟨120, _⟩ => ⟨S1x64, .f32⟩
  | .hbm, ⟨121, _⟩ => ⟨S1x64, .f32⟩
  | .hbm, ⟨122, _⟩ => ⟨S1x64, .f32⟩
  | .hbm, ⟨123, _⟩ => ⟨S1x2, .f32⟩
  | .hbm, ⟨124, _⟩ => ⟨S50000x2, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S64x2, .f32⟩
  | .local _ .vmem, ⟨47, _⟩ => ⟨S1x2, .f32⟩
  | .local _ .vmem, ⟨48, _⟩ => ⟨S2000x2, .f32⟩
  | .local _ .vmem, ⟨49, _⟩ => ⟨S2000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_c : Ref sig .tc := ⟨.hbm, 40, rfl⟩
abbrev main_v4 : Ref sig .tc := ⟨.hbm, 41, rfl⟩
abbrev main_v5 : Ref sig .tc := ⟨.hbm, 42, rfl⟩
abbrev main_c_0 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_c_1 : Ref sig .tc := ⟨.hbm, 61, rfl⟩
abbrev main_v22 : Ref sig .tc := ⟨.hbm, 62, rfl⟩
abbrev main_v23 : Ref sig .tc := ⟨.hbm, 63, rfl⟩
abbrev main_c_2 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_3 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_4 : Ref sig .tc := ⟨.hbm, 82, rfl⟩
abbrev main_v40 : Ref sig .tc := ⟨.hbm, 83, rfl⟩
abbrev main_v41 : Ref sig .tc := ⟨.hbm, 84, rfl⟩
abbrev main_c_5 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_6 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_c_7 : Ref sig .tc := ⟨.hbm, 103, rfl⟩
abbrev main_v58 : Ref sig .tc := ⟨.hbm, 104, rfl⟩
abbrev main_v59 : Ref sig .tc := ⟨.hbm, 105, rfl⟩
abbrev main_c_8 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_9 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg10_0 : Ref sig .tc := ⟨.vmem, 47, rfl⟩
abbrev cc3_stg11_0 : Ref sig .tc := ⟨.vmem, 48, rfl⟩
abbrev cc3_stg11_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem10_0 : DmaSem sig := 47
abbrev cc3_sem11_0 : DmaSem sig := 48
abbrev cc3_sem11_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x2 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x2 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S2000x2 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S256_S1x256 : S256.ShapeCasts S1x256
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S64_S1x64 : S64.ShapeCasts S1x64
  shapeCasts_S2_S1x2 : S2.ShapeCasts S1x2
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x256.size a ≤ S50000x256.size a
  hwx1_9 : ∀ i : grid1.Coords, EltTy.bits .f32 = 32 ∨ (Rect.block (s := S50000x256) S2000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S50000x128.size a
  hwx2_9 : ∀ i : grid2.Coords, EltTy.bits .f32 = 32 ∨ (Rect.block (s := S50000x128) S2000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x2.size a ≤ S64x2.size a
  hwx3_9 : ∀ i : grid3.Coords, EltTy.bits .f32 = 32 ∨ (Rect.block (s := S64x2) S64x2.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x2.size a ≤ S1x2.size a
  hwx3_10 : ∀ i : grid3.Coords, EltTy.bits .f32 = 32 ∨ (Rect.block (s := S1x2) S1x2.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2000x2.size a ≤ S50000x2.size a
  hwx3_11 : ∀ i : grid3.Coords, EltTy.bits .f32 = 32 ∨ (Rect.block (s := S50000x2) S2000x2.size (cc3_transform_11 i) (hinb3_11 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_v14) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v39) S2000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v50) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg18) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg20) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v56) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v57) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v68) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg26) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg28) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v72) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v74) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg34) S64x2.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v75) S1x2.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v76) S2000x2.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000x128 : Shape := ⟨2, ![50000, 128]⟩
abbrev S1x128 : Shape := ⟨2, ![1, 128]⟩
abbrev S800000x128 : Shape := ⟨2, ![800000, 128]⟩
abbrev S1x256 : Shape := ⟨2, ![1, 256]⟩
abbrev S50000x64 : Shape := ⟨2, ![50000, 64]⟩
abbrev S1x64 : Shape := ⟨2, ![1, 64]⟩
abbrev S50000x2 : Shape := ⟨2, ![50000, 2]⟩
abbrev S1x2 : Shape := ⟨2, ![1, 2]⟩

abbrev nBuf : Space → Nat
  | .hbm => 220
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128x256, .f32⟩
  | 11 => ⟨S256, .f32⟩
  | 12 => ⟨S256x256, .f32⟩
  | 13 => ⟨S256, .f32⟩
  | 14 => ⟨S256, .f32⟩
  | 15 => ⟨S256, .f32⟩
  | 16 => ⟨S256, .f32⟩
  | 17 => ⟨S256, .f32⟩
  | 18 => ⟨S256x128, .f32⟩
  | 19 => ⟨S128, .f32⟩
  | 20 => ⟨S128x128, .f32⟩
  | 21 => ⟨S128, .f32⟩
  | 22 => ⟨S128, .f32⟩
  | 23 => ⟨S128, .f32⟩
  | 24 => ⟨S128, .f32⟩
  | 25 => ⟨S128, .f32⟩
  | 26 => ⟨S128x64, .f32⟩
  | 27 => ⟨S64, .f32⟩
  | 28 => ⟨S64x64, .f32⟩
  | 29 => ⟨S64, .f32⟩
  | 30 => ⟨S64, .f32⟩
  | 31 => ⟨S64, .f32⟩
  | 32 => ⟨S64, .f32⟩
  | 33 => ⟨S64, .f32⟩
  | 34 => ⟨S64x2, .f32⟩
  | 35 => ⟨S2, .f32⟩
  | 36 => ⟨S1x800000, .i32⟩
  | 37 => ⟨S800000, .i32⟩
  | 38 => ⟨S1x800000, .i32⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x256, .f32⟩
  | 49 => ⟨S_, .f32⟩
  | 50 => ⟨S50000x256, .f32⟩
  | 51 => ⟨S800000x1, .i32⟩
  | 52 => ⟨S50000x256, .f32⟩
  | 53 => ⟨S50000x256, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S50000x128, .f32⟩
  | 98 => ⟨S50000x256, .f32⟩
  | 99 => ⟨S1x256, .f32⟩
  | 100 => ⟨S50000x256, .f32⟩
  | 101 => ⟨S50000x256, .f32⟩
  | 102 => ⟨S_, .f32⟩
  | 103 => ⟨S50000x256, .f32⟩
  | 104 => ⟨S50000x256, .f32⟩
  | 105 => ⟨S50000x256, .f32⟩
  | 106 => ⟨S1x256, .f32⟩
  | 107 => ⟨S50000x256, .f32⟩
  | 108 => ⟨S50000x256, .f32⟩
  | 109 => ⟨S1x256, .f32⟩
  | 110 => ⟨S50000x256, .f32⟩
  | 111 => ⟨S50000x256, .f32⟩
  | 112 => ⟨S_, .f32⟩
  | 113 => ⟨S256, .f32⟩
  | 114 => ⟨S256, .f32⟩
  | 115 => ⟨S256, .f32⟩
  | 116 => ⟨S1x256, .f32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S1x256, .f32⟩
  | 123 => ⟨S50000x256, .f32⟩
  | 124 => ⟨S50000x256, .f32⟩
  | 125 => ⟨S_, .f32⟩
  | 126 => ⟨S50000x256, .f32⟩
  | 127 => ⟨S50000x256, .f32⟩
  | _ => ⟨S50000x256, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x256, .f32⟩
  | 9 => ⟨S_, .f32⟩
  | 10 => ⟨S50000x256, .f32⟩
  | 11 => ⟨S800000x1, .i32⟩
  | 12 => ⟨S50000x256, .f32⟩
  | 13 => ⟨S50000x256, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000x128, .f32⟩
  | 58 => ⟨S50000x64, .f32⟩
  | 59 => ⟨S1x64, .f32⟩
  | 60 => ⟨S50000x64, .f32⟩
  | 61 => ⟨S50000x64, .f32⟩
  | 62 => ⟨S_, .f32⟩
  | 63 => ⟨S50000x64, .f32⟩
  | 64 => ⟨S50000x64, .f32⟩
  | 65 => ⟨S50000x64, .f32⟩
  | 66 => ⟨S1x64, .f32⟩
  | 67 => ⟨S50000x64, .f32⟩
  | 68 => ⟨S50000x64, .f32⟩
  | 69 => ⟨S1x64, .f32⟩
  | 70 => ⟨S50000x64, .f32⟩
  | 71 => ⟨S50000x64, .f32⟩
  | 72 => ⟨S_, .f32⟩
  | 73 => ⟨S64, .f32⟩
  | 74 => ⟨S64, .f32⟩
  | 75 => ⟨S64, .f32⟩
  | 76 => ⟨S1x64, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S1x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S50000x2, .f32⟩
  | 89 => ⟨S1x2, .f32⟩
  | 90 => ⟨S50000x2, .f32⟩
  | 91 => ⟨S50000x2, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_c : Ref sig .tc := ⟨.hbm, 40, rfl⟩
abbrev main_v4 : Ref sig .tc := ⟨.hbm, 41, rfl⟩
abbrev main_v5 : Ref sig .tc := ⟨.hbm, 42, rfl⟩
abbrev main_c_0 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_call0_cst : Ref sig .tc := ⟨.hbm, 58, rfl⟩
abbrev main_call0_v0 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_1 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_call1_cst : Ref sig .tc := ⟨.hbm, 81, rfl⟩
abbrev main_call1_v0 : Ref sig .tc := ⟨.hbm, 82, rfl⟩
abbrev main_v39 : Ref sig .tc := ⟨.hbm, 83, rfl⟩
abbrev main_c_2 : Ref sig .tc := ⟨.hbm, 84, rfl⟩
abbrev main_v40 : Ref sig .tc := ⟨.hbm, 85, rfl⟩
abbrev main_v41 : Ref sig .tc := ⟨.hbm, 86, rfl⟩
abbrev main_c_3 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_4 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_call2_cst : Ref sig .tc := ⟨.hbm, 102, rfl⟩
abbrev main_call2_v0 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_5 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_call3_cst : Ref sig .tc := ⟨.hbm, 125, rfl⟩
abbrev main_call3_v0 : Ref sig .tc := ⟨.hbm, 126, rfl⟩
abbrev main_v75 : Ref sig .tc := ⟨.hbm, 127, rfl⟩
abbrev main_c_6 : Ref sig .tc := ⟨.hbm, 128, rfl⟩
abbrev main_v76 : Ref sig .tc := ⟨.hbm, 129, rfl⟩
abbrev main_v77 : Ref sig .tc := ⟨.hbm, 130, rfl⟩
abbrev main_c_7 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_8 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_call4_cst : Ref sig .tc := ⟨.hbm, 146, rfl⟩
abbrev main_call4_v0 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_9 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_call5_cst : Ref sig .tc := ⟨.hbm, 169, rfl⟩
abbrev main_call5_v0 : Ref sig .tc := ⟨.hbm, 170, rfl⟩
abbrev main_v111 : Ref sig .tc := ⟨.hbm, 171, rfl⟩
abbrev main_c_10 : Ref sig .tc := ⟨.hbm, 172, rfl⟩
abbrev main_v112 : Ref sig .tc := ⟨.hbm, 173, rfl⟩
abbrev main_v113 : Ref sig .tc := ⟨.hbm, 174, rfl⟩
abbrev main_c_11 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_cst_12 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_call6_cst : Ref sig .tc := ⟨.hbm, 190, rfl⟩
abbrev main_call6_v0 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_cst_13 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_call7_cst : Ref sig .tc := ⟨.hbm, 213, rfl⟩
abbrev main_call7_v0 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S128 : S_.BroadcastsInDim S128 (![] : Fin 0 → Fin S128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S64 : S_.BroadcastsInDim S64 (![] : Fin 0 → Fin S64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  dot_S50000x64_S64x2_S50000x2_1_0_0_1_n_n_wf : DotDims.WF S50000x64 S64x2 S50000x2 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.Spec.lean ====
/-
  The mathematics both programs compute, as functions on the extended reals, for any sizes.

  One layer of the stack takes a node-feature matrix z (n rows, A features) and returns, entry by entry,

      max( (((relu(z · wa + ba) · wb + bb) - m) * rsqrt(v + eps)) * g + be , 0 )

  where relu(x) = max(x, 0), the products are matrix products (sums over the contracted axis), the vectors
  ba, bb, m, v, g, be are added, subtracted or multiplied along the columns, and eps is the value of the one
  float word both programs carry for the batch-norm epsilon.  The last step of the stack is a plain affine map
  h · wc + bc.  An entry (r, q) of either depends on z only through its row r: that is what lets a kernel that
  works on blocks of rows agree with a reference that works on the whole matrix.
-/
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-- The batch-norm epsilon: the value of the float word 0x3727C5AC (the f32 nearest 1e-5). -/
def eps : EReal := Ideal.ofBits .f32 0x3727C5AC#32

/-- A matrix product, entry by entry: the sum over the contracted axis of row entries times column entries. -/
def mm {n K d : Nat} (x : (⟨2, ![n, K]⟩ : Shape).Idx → EReal) (w : (⟨2, ![K, d]⟩ : Shape).Idx → EReal) :
    (⟨2, ![n, d]⟩ : Shape).Idx → EReal :=
  fun i => ∑ k : Fin K, x (ix2 (i 0) k) * w (ix2 k (i 1))

/-- One row [1, d] read as the vector of its d entries. -/
def rowOf {d : Nat} (b : (⟨2, ![1, d]⟩ : Shape).Idx → EReal) : (⟨1, ![d]⟩ : Shape).Idx → EReal :=
  fun i => b (ix2 (0 : Fin 1) (i 0))

/-- The hidden activations of a layer: relu(z · wa + ba). -/
def hidden {n A B : Nat} (z : (⟨2, ![n, A]⟩ : Shape).Idx → EReal) (wa : (⟨2, ![A, B]⟩ : Shape).Idx → EReal)
    (ba : (⟨1, ![B]⟩ : Shape).Idx → EReal) : (⟨2, ![n, B]⟩ : Shape).Idx → EReal :=
  fun j => max (mm z wa j + ba (ix1 (j 1))) 0

/-- One layer of the stack, entry by entry. -/
def layer {n A B C : Nat} (z : (⟨2, ![n, A]⟩ : Shape).Idx → EReal) (wa : (⟨2, ![A, B]⟩ : Shape).Idx → EReal)
    (ba : (⟨1, ![B]⟩ : Shape).Idx → EReal) (wb : (⟨2, ![B, C]⟩ : Shape).Idx → EReal)
    (bb g be m v : (⟨1, ![C]⟩ : Shape).Idx → EReal) : (⟨2, ![n, C]⟩ : Shape).Idx → EReal :=
  fun i => max ((((mm (hidden z wa ba) wb i + bb (ix1 (i 1))) - m (ix1 (i 1))) * Ideal.rsqrt (v (ix1 (i 1)) + eps))
    * g (ix1 (i 1)) + be (ix1 (i 1))) 0

/-- The final affine map h · wc + bc, entry by entry. -/
def affine {n C D : Nat} (h : (⟨2, ![n, C]⟩ : Shape).Idx → EReal) (wc : (⟨2, ![C, D]⟩ : Shape).Idx → EReal)
    (bc : (⟨1, ![D]⟩ : Shape).Idx → EReal) : (⟨2, ![n, D]⟩ : Shape).Idx → EReal :=
  fun i => mm h wc i + bc (ix1 (i 1))

/-- An entry of a matrix product depends on the left factor only through that entry's row. -/
theorem mm_row {n n' K d : Nat} (x : (⟨2, ![n, K]⟩ : Shape).Idx → EReal) (x' : (⟨2, ![n', K]⟩ : Shape).Idx → EReal)
    (w : (⟨2, ![K, d]⟩ : Shape).Idx → EReal) (p : Fin n) (r : Fin n') (q : Fin d)
    (h : ∀ k : Fin K, x (ix2 p k) = x' (ix2 r k)) : mm x w (ix2 p q) = mm x' w (ix2 r q) :=
  Finset.sum_congr rfl fun k _ => congrArg (· * w (ix2 k q)) (h k)

/-- An entry of the hidden activations depends on z only through that entry's row. -/
theorem hidden_row {n n' A B : Nat} (z : (⟨2, ![n, A]⟩ : Shape).Idx → EReal) (z' : (⟨2, ![n', A]⟩ : Shape).Idx → EReal)
    (wa : (⟨2, ![A, B]⟩ : Shape).Idx → EReal) (ba : (⟨1, ![B]⟩ : Shape).Idx → EReal) (p : Fin n) (r : Fin n') (k : Fin B)
    (h : ∀ j : Fin A, z (ix2 p j) = z' (ix2 r j)) : hidden z wa ba (ix2 p k) = hidden z' wa ba (ix2 r k) :=
  congrArg (fun s => max (s + ba (ix1 k)) 0) (mm_row z z' wa p r k h)

/-- An entry of a layer's output depends on z only through that entry's row. -/
theorem layer_row {n n' A B C : Nat} (z : (⟨2, ![n, A]⟩ : Shape).Idx → EReal) (z' : (⟨2, ![n', A]⟩ : Shape).Idx → EReal)
    (wa : (⟨2, ![A, B]⟩ : Shape).Idx → EReal) (ba : (⟨1, ![B]⟩ : Shape).Idx → EReal)
    (wb : (⟨2, ![B, C]⟩ : Shape).Idx → EReal) (bb g be m v : (⟨1, ![C]⟩ : Shape).Idx → EReal)
    (p : Fin n) (r : Fin n') (q : Fin C) (h : ∀ j : Fin A, z (ix2 p j) = z' (ix2 r j)) :
    layer z wa ba wb bb g be m v (ix2 p q) = layer z' wa ba wb bb g be m v (ix2 r q) :=
  congrArg (fun s => max ((((s + bb (ix1 q)) - m (ix1 q)) * Ideal.rsqrt (v (ix1 q) + eps)) * g (ix1 q) + be (ix1 q)) 0)
    (mm_row _ _ wb p r q fun k => hidden_row z z' wa ba p r k h)

/-- An entry of the final affine map depends on h only through that entry's row. -/
theorem affine_row {n n' C D : Nat} (h : (⟨2, ![n, C]⟩ : Shape).Idx → EReal) (h' : (⟨2, ![n', C]⟩ : Shape).Idx → EReal)
    (wc : (⟨2, ![C, D]⟩ : Shape).Idx → EReal) (bc : (⟨1, ![D]⟩ : Shape).Idx → EReal) (p : Fin n) (r : Fin n') (q : Fin D)
    (e : ∀ k : Fin C, h (ix2 p k) = h' (ix2 r k)) : affine h wc bc (ix2 p q) = affine h' wc bc (ix2 r q) :=
  congrArg (· + bc (ix1 q)) (mm_row h h' wc p r q e)

/-- An entry of the layer of a block of rows is the entry, in the matching row and the same column, of the layer of
    the whole matrix: stated at arbitrary indices y (of the block) and i (of the whole), matched by coordinates. -/
theorem layer_point {n n' A B C : Nat} (z : (⟨2, ![n, A]⟩ : Shape).Idx → EReal) (z' : (⟨2, ![n', A]⟩ : Shape).Idx → EReal)
    (wa : (⟨2, ![A, B]⟩ : Shape).Idx → EReal) (ba : (⟨1, ![B]⟩ : Shape).Idx → EReal)
    (wb : (⟨2, ![B, C]⟩ : Shape).Idx → EReal) (bb g be m v : (⟨1, ![C]⟩ : Shape).Idx → EReal)
    (y : (⟨2, ![n, C]⟩ : Shape).Idx) (i : (⟨2, ![n', C]⟩ : Shape).Idx) (hc : (i 1).val = (y 1).val)
    (h : ∀ j : Fin A, z (ix2 (y 0) j) = z' (ix2 (i 0) j)) :
    layer z wa ba wb bb g be m v y = layer z' wa ba wb bb g be m v i := by
  obtain ⟨p, q, rfl⟩ : ∃ (p : Fin n) (q : Fin C), y = ix2 p q := ⟨y 0, y 1, eq_ix2 y⟩
  obtain ⟨r, q', rfl⟩ : ∃ (r : Fin n') (q' : Fin C), i = ix2 r q' := ⟨i 0, i 1, eq_ix2 i⟩
  obtain rfl : q = q' := Fin.ext hc.symm
  exact layer_row z z' wa ba wb bb g be m v p r q h

/-- The same for the final affine map applied to a layer. -/
theorem affine_layer_point {n n' A B C D : Nat} (z : (⟨2, ![n, A]⟩ : Shape).Idx → EReal)
    (z' : (⟨2, ![n', A]⟩ : Shape).Idx → EReal)
    (wa : (⟨2, ![A, B]⟩ : Shape).Idx → EReal) (ba : (⟨1, ![B]⟩ : Shape).Idx → EReal)
    (wb : (⟨2, ![B, C]⟩ : Shape).Idx → EReal) (bb g be m v : (⟨1, ![C]⟩ : Shape).Idx → EReal)
    (wc : (⟨2, ![C, D]⟩ : Shape).Idx → EReal) (bc : (⟨1, ![D]⟩ : Shape).Idx → EReal)
    (y : (⟨2, ![n, D]⟩ : Shape).Idx) (i : (⟨2, ![n', D]⟩ : Shape).Idx) (hc : (i 1).val = (y 1).val)
    (h : ∀ j : Fin A, z (ix2 (y 0) j) = z' (ix2 (i 0) j)) :
    affine (layer z wa ba wb bb g be m v) wc bc y = affine (layer z' wa ba wb bb g be m v) wc bc i := by
  obtain ⟨p, q, rfl⟩ : ∃ (p : Fin n) (q : Fin D), y = ix2 p q := ⟨y 0, y 1, eq_ix2 y⟩
  obtain ⟨r, q', rfl⟩ : ∃ (r : Fin n') (q' : Fin D), i = ix2 r q' := ⟨i 0, i 1, eq_ix2 i⟩
  obtain rfl : q = q' := Fin.ext hc.symm
  exact affine_row _ _ wc bc p r q fun k => layer_row z z' wa ba wb bb g be m v p r k h

/-- The whole stack: four layers, each fed the previous features plus their neighbour aggregate (the aggregate a
    parameter here, one map per feature width: both programs compute it by the same host operations), then the final
    affine map.  Sizes are those of the two programs: 50000 nodes, feature widths 256 → 128 → 256 → 128 → 64 → 2. -/
def stack
    (agg256 : ((⟨2, ![50000, 256]⟩ : Shape).Idx → EReal) → ((⟨2, ![50000, 256]⟩ : Shape).Idx → EReal))
    (agg128 : ((⟨2, ![50000, 128]⟩ : Shape).Idx → EReal) → ((⟨2, ![50000, 128]⟩ : Shape).Idx → EReal))
    (x : (⟨2, ![50000, 256]⟩ : Shape).Idx → EReal)
    (w1a : (⟨2, ![256, 128]⟩ : Shape).Idx → EReal) (b1a : (⟨1, ![128]⟩ : Shape).Idx → EReal)
    (w1b : (⟨2, ![128, 128]⟩ : Shape).Idx → EReal) (b1b g1 be1 m1 v1 : (⟨1, ![128]⟩ : Shape).Idx → EReal)
    (w2a : (⟨2, ![128, 256]⟩ : Shape).Idx → EReal) (b2a : (⟨1, ![256]⟩ : Shape).Idx → EReal)
    (w2b : (⟨2, ![256, 256]⟩ : Shape).Idx → EReal) (b2b g2 be2 m2 v2 : (⟨1, ![256]⟩ : Shape).Idx → EReal)
    (w3a : (⟨2, ![256, 128]⟩ : Shape).Idx → EReal) (b3a : (⟨1, ![128]⟩ : Shape).Idx → EReal)
    (w3b : (⟨2, ![128, 128]⟩ : Shape).Idx → EReal) (b3b g3 be3 m3 v3 : (⟨1, ![128]⟩ : Shape).Idx → EReal)
    (w4a : (⟨2, ![128, 64]⟩ : Shape).Idx → EReal) (b4a : (⟨1, ![64]⟩ : Shape).Idx → EReal)
    (w4b : (⟨2, ![64, 64]⟩ : Shape).Idx → EReal) (b4b g4 be4 m4 v4 : (⟨1, ![64]⟩ : Shape).Idx → EReal)
    (wc : (⟨2, ![64, 2]⟩ : Shape).Idx → EReal) (bc : (⟨1, ![2]⟩ : Shape).Idx → EReal) :
    (⟨2, ![50000, 2]⟩ : Shape).Idx → EReal :=
  affine
    (layer (agg128
      (layer (agg256
        (layer (agg128
          (layer (agg256 x) w1a b1a w1b b1b g1 be1 m1 v1))
          w2a b2a w2b b2b g2 be2 m2 v2))
        w3a b3a w3b b3b g3 be3 m3 v3))
      w4a b4a w4b b4b g4 be4 m4 v4)
    wc bc

end Cert.Spec

end
-- ==== Proof.KernelRun.lean ====
/-
  The idealized kernel program's run, with every buffer named.

  The program is four kernel regions among stretches of host operations: eight segments.  Walk the buffer contents
  through them from the launch memory: a host stretch applies its operations' pure functions to the buffers it
  writes; a region replaces each of its output arrays by what its write-backs leave and keeps every other buffer.
  The walk ends at the contents W8 of the imported frame module.  The theorem here: every weakly fair execution
  terminates, nothing faulting, and in every final state each unscoped buffer of each core holds W8's contents —
  the result buffer among them, and the argument arrays, which the walk never changes.
-/
import proofs.«172044_j54296976556546_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final state every unscoped
    buffer of every core holds the contents the walk through the segments ends at. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.KerRun

end
-- ==== Proof.KernelParams.lean ====
/-
  The kernel program's parameter arrays, walked back to the launch memory.

  The kernel program is four regions among four stretches of host operations.  A buffer that a stretch does not
  write, and that a region does not own, holds after it what it held before; so each parameter of region k, read at
  the region's entry, is the launch contents of the argument it comes from: a weight matrix is the argument itself,
  a row vector [1, d] is the argument [d] reshaped, and the edge list's two rows (sources, destinations), computed
  once by the first stretch, are the same at every later stage.
-/
import proofs.«172044_j54296976556546_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Params

open Cert.KernelIdeal Cert.KernelIdeal.Gen Idealize.ShloMosaic Idealize.ShloMosaic.TcCoe Idealize.ShloMosaic.ValueIdx

/-! ## Two general facts -/

/-- A vector [d] reshaped to one row [1, d], read at (0, i), is the vector's entry i. -/
theorem shapeCast_row {α : Type} {d : Nat} (x : (⟨1, ![d]⟩ : Shape).Idx → α)
    (h : (⟨1, ![d]⟩ : Shape).ShapeCasts ⟨2, ![1, d]⟩) (i : (⟨1, ![d]⟩ : Shape).Idx) :
    shapeCast ⟨2, ![1, d]⟩ x h (ix2 (0 : Fin 1) (i 0)) = x i :=
  shapeCast_apply x h _ i (by
    rw [Shape.rowMajor_val_one, Shape.rowMajor_val_two]
    show (i 0).val = 0 * d + (i 0).val
    omega)

/-- An operation whose one written buffer is in a list writes inside the list. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-! ## What each stretch of host operations writes -/
/-- The buffers stretch 0 writes, in order. -/
abbrev wr0 : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20]
theorem hW0 : (hostOps0 : List (HloOp τ sig (Elt Ideal))).Forall fun op =>
    op.writes ⊆ (wr0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact writes_sub_of_mem (by decide)
/-- The buffers stretch 1 writes, in order. -/
abbrev wr1 : List (Ref sig .tc) :=
  [main_c_1, main_v22, main_v23, main_c_2, main_v24, main_v25, main_v26, main_v27, main_v28, main_cst_3, main_v29, main_v30, main_v31, main_v32, main_v33, main_v34, main_v35, main_v36, main_v37, main_v38]
theorem hW1 : (hostOps1 : List (HloOp τ sig (Elt Ideal))).Forall fun op =>
    op.writes ⊆ (wr1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact writes_sub_of_mem (by decide)
/-- The buffers stretch 2 writes, in order. -/
abbrev wr2 : List (Ref sig .tc) :=
  [main_c_4, main_v40, main_v41, main_c_5, main_v42, main_v43, main_v44, main_v45, main_v46, main_cst_6, main_v47, main_v48, main_v49, main_v50, main_v51, main_v52, main_v53, main_v54, main_v55, main_v56]
theorem hW2 : (hostOps2 : List (HloOp τ sig (Elt Ideal))).Forall fun op =>
    op.writes ⊆ (wr2.map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact writes_sub_of_mem (by decide)
/-- The buffers stretch 3 writes, in order. -/
abbrev wr3 : List (Ref sig .tc) :=
  [main_c_7, main_v58, main_v59, main_c_8, main_v60, main_v61, main_v62, main_v63, main_v64, main_cst_9, main_v65, main_v66, main_v67, main_v68, main_v69, main_v70, main_v71, main_v72, main_v73, main_v74, main_v75]
theorem hW3 : (hostOps3 : List (HloOp τ sig (Elt Ideal))).Forall fun op =>
    op.writes ⊆ (wr3.map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact writes_sub_of_mem (by decide)
variable (m : (ℓ : Loc nD τ sig) → Buf (Elt Ideal) ℓ) (ρ : Dev nD → PrngReg) (c : Dev nD)

/-! ## A buffer a stretch does not write is unchanged by it -/

theorem keep0 {r : Ref sig .tc} (hr : r ∉ wr0) : W1 m ρ c (Proc.devRef .tc r) = W0 m ρ c (Proc.devRef .tc r) :=
  StableHlo.after_of_writes_sub hostOps0 (W0 m ρ c) hW0 hr
theorem keep1 {r : Ref sig .tc} (hr : r ∉ wr1) : W3 m ρ c (Proc.devRef .tc r) = W2 m ρ c (Proc.devRef .tc r) :=
  StableHlo.after_of_writes_sub hostOps1 (W2 m ρ c) hW1 hr
theorem keep2 {r : Ref sig .tc} (hr : r ∉ wr2) : W5 m ρ c (Proc.devRef .tc r) = W4 m ρ c (Proc.devRef .tc r) :=
  StableHlo.after_of_writes_sub hostOps2 (W4 m ρ c) hW2 hr
theorem keep3 {r : Ref sig .tc} (hr : r ∉ wr3) : W7 m ρ c (Proc.devRef .tc r) = W6 m ρ c (Proc.devRef .tc r) :=
  StableHlo.after_of_writes_sub hostOps3 (W6 m ρ c) hW3 hr

/-! ## Walking a buffer back to the launch memory

A buffer no region up to a stage owns and no stretch up to it writes holds, at that stage, its launch contents. -/

theorem back2 {r : Ref sig .tc} (g0 : ∀ w, Pipeline.arrRef spec0 w ≠ r) (h0 : r ∉ wr0) :
    W2 m ρ c (Proc.devRef .tc r) = W0 m ρ c (Proc.devRef .tc r) :=
  (W2_of_ne m ρ c r g0).trans (keep0 m ρ c h0)
theorem back4 {r : Ref sig .tc} (g1 : ∀ w, Pipeline.arrRef spec1 w ≠ r) (h1 : r ∉ wr1)
    (g0 : ∀ w, Pipeline.arrRef spec0 w ≠ r) (h0 : r ∉ wr0) :
    W4 m ρ c (Proc.devRef .tc r) = W0 m ρ c (Proc.devRef .tc r) :=
  (W4_of_ne m ρ c r g1).trans ((keep1 m ρ c h1).trans (back2 m ρ c g0 h0))
theorem back6 {r : Ref sig .tc} (g2 : ∀ w, Pipeline.arrRef spec2 w ≠ r) (h2 : r ∉ wr2)
    (g1 : ∀ w, Pipeline.arrRef spec1 w ≠ r) (h1 : r ∉ wr1)
    (g0 : ∀ w, Pipeline.arrRef spec0 w ≠ r) (h0 : r ∉ wr0) :
    W6 m ρ c (Proc.devRef .tc r) = W0 m ρ c (Proc.devRef .tc r) :=
  (W6_of_ne m ρ c r g2).trans ((keep2 m ρ c h2).trans (back4 m ρ c g1 h1 g0 h0))

/-! ## The edge list's two rows

The first stretch slices the edge list [2, E] into its row of sources and its row of destinations; no later stretch
writes them and no region owns them. -/

/-- The sources: row 0 of the edge list, as a vector. -/
def srcOf (e : IVec S2x800000 32) : IVec S800000 32 :=
  shapeCast _ (extractStridedSlice S1x800000 ![0, 0] e slices_S2x800000_S1x800000_0_0) shapeCasts_S1x800000_S800000
/-- The destinations: row 1 of the edge list, as a vector. -/
def dstOf (e : IVec S2x800000 32) : IVec S800000 32 :=
  shapeCast _ (extractStridedSlice S1x800000 ![1, 0] e slices_S2x800000_S1x800000_1_0) shapeCasts_S1x800000_S800000

theorem src0 : W1 m ρ c (Proc.devRef .tc main_v1) = srcOf (m ((c : Thread nD τ).loc main_arg1)) := by
  show StableHlo.after hostOps0 (W0 m ρ c) (Proc.devRef .tc main_v1) = _
  after_results; rfl
theorem dst0 : W1 m ρ c (Proc.devRef .tc main_v3) = dstOf (m ((c : Thread nD τ).loc main_arg1)) := by
  show StableHlo.after hostOps0 (W0 m ρ c) (Proc.devRef .tc main_v3) = _
  after_results; rfl
theorem src2 : W2 m ρ c (Proc.devRef .tc main_v1) = srcOf (m ((c : Thread nD τ).loc main_arg1)) :=
  (W2_of_ne m ρ c main_v1 (by decide)).trans (src0 m ρ c)
theorem dst2 : W2 m ρ c (Proc.devRef .tc main_v3) = dstOf (m ((c : Thread nD τ).loc main_arg1)) :=
  (W2_of_ne m ρ c main_v3 (by decide)).trans (dst0 m ρ c)
theorem src4 : W4 m ρ c (Proc.devRef .tc main_v1) = srcOf (m ((c : Thread nD τ).loc main_arg1)) :=
  (W4_of_ne m ρ c main_v1 (by decide)).trans ((keep1 m ρ c (by decide)).trans (src2 m ρ c))
theorem dst4 : W4 m ρ c (Proc.devRef .tc main_v3) = dstOf (m ((c : Thread nD τ).loc main_arg1)) :=
  (W4_of_ne m ρ c main_v3 (by decide)).trans ((keep1 m ρ c (by decide)).trans (dst2 m ρ c))
theorem src6 : W6 m ρ c (Proc.devRef .tc main_v1) = srcOf (m ((c : Thread nD τ).loc main_arg1)) :=
  (W6_of_ne m ρ c main_v1 (by decide)).trans ((keep2 m ρ c (by decide)).trans (src4 m ρ c))
theorem dst6 : W6 m ρ c (Proc.devRef .tc main_v3) = dstOf (m ((c : Thread nD τ).loc main_arg1)) :=
  (W6_of_ne m ρ c main_v3 (by decide)).trans ((keep2 m ρ c (by decide)).trans (dst4 m ρ c))

/-! ## Region 0: its parameters at its entry -/

theorem p0_main_arg2 : W1 m ρ c (Proc.devRef .tc main_arg2) = (m ((c : Thread nD τ).loc main_arg2)) :=
  keep0 m ρ c (by decide)

theorem p0_main_arg4 : W1 m ρ c (Proc.devRef .tc main_arg4) = (m ((c : Thread nD τ).loc main_arg4)) :=
  keep0 m ρ c (by decide)

theorem p0_main_v15 : (fun i : (⟨1, ![128]⟩ : Shape).Idx => W1 m ρ c (Proc.devRef .tc main_v15) (ix2 (0 : Fin 1) (i 0)))
    = (m ((c : Thread nD τ).loc main_arg3)) := by
  have h : W1 m ρ c (Proc.devRef .tc main_v15)
      = shapeCast S1x128 (W0 m ρ c (Proc.devRef .tc main_arg3)) shapeCasts_S128_S1x128 := by
    show StableHlo.after hostOps0 (W0 m ρ c) (Proc.devRef .tc main_v15) = _
    after_results; rfl
  funext i
  rw [h]
  exact shapeCast_row _ _ i

theorem p0_main_v16 : (fun i : (⟨1, ![128]⟩ : Shape).Idx => W1 m ρ c (Proc.devRef .tc main_v16) (ix2 (0 : Fin 1) (i 0)))
    = (m ((c : Thread nD τ).loc main_arg5)) := by
  have h : W1 m ρ c (Proc.devRef .tc main_v16)
      = shapeCast S1x128 (W0 m ρ c (Proc.devRef .tc main_arg5)) shapeCasts_S128_S1x128 := by
    show StableHlo.after hostOps0 (W0 m ρ c) (Proc.devRef .tc main_v16) = _
    after_results; rfl
  funext i
  rw [h]
  exact shapeCast_row _ _ i

theorem p0_main_v17 : (fun i : (⟨1, ![128]⟩ : Shape).Idx => W1 m ρ c (Proc.devRef .tc main_v17) (ix2 (0 : Fin 1) (i 0)))
    = (m ((c : Thread nD τ).loc main_arg6)) := by
  have h : W1 m ρ c (Proc.devRef .tc main_v17)
      = shapeCast S1x128 (W0 m ρ c (Proc.devRef .tc main_arg6)) shapeCasts_S128_S1x128 := by
    show StableHlo.after hostOps0 (W0 m ρ c) (Proc.devRef .tc main_v17) = _
    after_results; rfl
  funext i
  rw [h]
  exact shapeCast_row _ _ i

theorem p0_main_v18 : (fun i : (⟨1, ![128]⟩ : Shape).Idx => W1 m ρ c (Proc.devRef .tc main_v18) (ix2 (0 : Fin 1) (i 0)))
    = (m ((c : Thread nD τ).loc main_arg7)) := by
  have h : W1 m ρ c (Proc.devRef .tc main_v18)
      = shapeCast S1x128 (W0 m ρ c (Proc.devRef .tc main_arg7)) shapeCasts_S128_S1x128 := by
    show StableHlo.after hostOps0 (W0 m ρ c) (Proc.devRef .tc main_v18) = _
    after_results; rfl
  funext i
  rw [h]
  exact shapeCast_row _ _ i

theorem p0_main_v19 : (fun i : (⟨1, ![128]⟩ : Shape).Idx => W1 m ρ c (Proc.devRef .tc main_v19) (ix2 (0 : Fin 1) (i 0)))
    = (m ((c : Thread nD τ).loc main_arg8)) := by
  have h : W1 m ρ c (Proc.devRef .tc main_v19)
      = shapeCast S1x128 (W0 m ρ c (Proc.devRef .tc main_arg8)) shapeCasts_S128_S1x128 := by
    show StableHlo.after hostOps0 (W0 m ρ c) (Proc.devRef .tc main_v19) = _
    after_results; rfl
  funext i
  rw [h]
  exact shapeCast_row _ _ i

theorem p0_main_v20 : (fun i : (⟨1, ![128]⟩ : Shape).Idx => W1 m ρ c (Proc.devRef .tc main_v20) (ix2 (0 : Fin 1) (i 0)))
    = (m ((c : Thread nD τ).loc main_arg9)) := by
  have h : W1 m ρ c (Proc.devRef .tc main_v20)
      = shapeCast S1x128 (W0 m ρ c (Proc.devRef .tc main_arg9)) shapeCasts_S128_S1x128 := by
    show StableHlo.after hostOps0 (W0 m ρ c) (Proc.devRef .tc main_v20) = _
    after_results; rfl
  funext i
  rw [h]
  exact shapeCast_row _ _ i

/-! ## Region 1: its parameters at its entry -/

theorem p1_main_arg10 : W3 m ρ c (Proc.devRef .tc main_arg10) = (m ((c : Thread nD τ).loc main_arg10)) :=
  (keep1 m ρ c (by decide)).trans (back2 m ρ c (r := main_arg10) (by decide) (by decide))

theorem p1_main_arg12 : W3 m ρ c (Proc.devRef .tc main_arg12) = (m ((c : Thread nD τ).loc main_arg12)) :=
  (keep1 m ρ c (by decide)).trans (back2 m ρ c (r := main_arg12) (by decide) (by decide))

theorem p1_main_v33 : (fun i : (⟨1, ![256]⟩ : Shape).Idx => W3 m ρ c (Proc.devRef .tc main_v33) (ix2 (0 : Fin 1) (i 0)))
    = (m ((c : Thread nD τ).loc main_arg11)) := by
  have h : W3 m ρ c (Proc.devRef .tc main_v33)
      = shapeCast S1x256 (W2 m ρ c (Proc.devRef .tc main_arg11)) shapeCasts_S256_S1x256 := by
    show StableHlo.after hostOps1 (W2 m ρ c) (Proc.devRef .tc main_v33) = _
    after_results; rfl
  funext i
  rw [h]
  rw [back2 m ρ c (r := main_arg11) (by decide) (by decide)]
  exact shapeCast_row _ _ i

theorem p1_main_v34 : (fun i : (⟨1, ![256]⟩ : Shape).Idx => W3 m ρ c (Proc.devRef .tc main_v34) (ix2 (0 : Fin 1) (i 0)))
    = (m ((c : Thread nD τ).loc main_arg13)) := by
  have h : W3 m ρ c (Proc.devRef .tc main_v34)
      = shapeCast S1x256 (W2 m ρ c (Proc.devRef .tc main_arg13)) shapeCasts_S256_S1x256 := by
    show StableHlo.after hostOps1 (W2 m ρ c) (Proc.devRef .tc main_v34) = _
    after_results; rfl
  funext i
  rw [h]
  rw [back2 m ρ c (r := main_arg13) (by decide) (by decide)]
  exact shapeCast_row _ _ i

theorem p1_main_v35 : (fun i : (⟨1, ![256]⟩ : Shape).Idx => W3 m ρ c (Proc.devRef .tc main_v35) (ix2 (0 : Fin 1) (i 0)))
    = (m ((c : Thread nD τ).loc main_arg14)) := by
  have h : W3 m ρ c (Proc.devRef .tc main_v35)
      = shapeCast S1x256 (W2 m ρ c (Proc.devRef .tc main_arg14)) shapeCasts_S256_S1x256 := by
    show StableHlo.after hostOps1 (W2 m ρ c) (Proc.devRef .tc main_v35) = _
    after_results; rfl
  funext i
  rw [h]
  rw [back2 m ρ c (r := main_arg14) (by decide) (by decide)]
  exact shapeCast_row _ _ i

theorem p1_main_v36 : (fun i : (⟨1, ![256]⟩ : Shape).Idx => W3 m ρ c (Proc.devRef .tc main_v36) (ix2 (0 : Fin 1) (i 0)))
    = (m ((c : Thread nD τ).loc main_arg15)) := by
  have h : W3 m ρ c (Proc.devRef .tc main_v36)
      = shapeCast S1x256 (W2 m ρ c (Proc.devRef .tc main_arg15)) shapeCasts_S256_S1x256 := by
    show StableHlo.after hostOps1 (W2 m ρ c) (Proc.devRef .tc main_v36) = _
    after_results; rfl
  funext i
  rw [h]
  rw [back2 m ρ c (r := main_arg15) (by decide) (by decide)]
  exact shapeCast_row _ _ i

theorem p1_main_v37 : (fun i : (⟨1, ![256]⟩ : Shape).Idx => W3 m ρ c (Proc.devRef .tc main_v37) (ix2 (0 : Fin 1) (i 0)))
    = (m ((c : Thread nD τ).loc main_arg16)) := by
  have h : W3 m ρ c (Proc.devRef .tc main_v37)
      = shapeCast S1x256 (W2 m ρ c (Proc.devRef .tc main_arg16)) shapeCasts_S256_S1x256 := by
    show StableHlo.after hostOps1 (W2 m ρ c) (Proc.devRef .tc main_v37) = _
    after_results; rfl
  funext i
  rw [h]
  rw [back2 m ρ c (r := main_arg16) (by decide) (by decide)]
  exact shapeCast_row _ _ i

theorem p1_main_v38 : (fun i : (⟨1, ![256]⟩ : Shape).Idx => W3 m ρ c (Proc.devRef .tc main_v38) (ix2 (0 : Fin 1) (i 0)))
    = (m ((c : Thread nD τ).loc main_arg17)) := by
  have h : W3 m ρ c (Proc.devRef .tc main_v38)
      = shapeCast S1x256 (W2 m ρ c (Proc.devRef .tc main_arg17)) shapeCasts_S256_S1x256 := by
    show StableHlo.after hostOps1 (W2 m ρ c) (Proc.devRef .tc main_v38) = _
    after_results; rfl
  funext i
  rw [h]
  rw [back2 m ρ c (r := main_arg17) (by decide) (by decide)]
  exact shapeCast_row _ _ i

/-! ## Region 2: its parameters at its entry -/

theorem p2_main_arg18 : W5 m ρ c (Proc.devRef .tc main_arg18) = (m ((c : Thread nD τ).loc main_arg18)) :=
  (keep2 m ρ c (by decide)).trans (back4 m ρ c (r := main_arg18) (by decide) (by decide) (by decide) (by decide))

theorem p2_main_arg20 : W5 m ρ c (Proc.devRef .tc main_arg20) = (m ((c : Thread nD τ).loc main_arg20)) :=
  (keep2 m ρ c (by decide)).trans (back4 m ρ c (r := main_arg20) (by decide) (by decide) (by decide) (by decide))

theorem p2_main_v51 : (fun i : (⟨1, ![128]⟩ : Shape).Idx => W5 m ρ c (Proc.devRef .tc main_v51) (ix2 (0 : Fin 1) (i 0)))
    = (m ((c : Thread nD τ).loc main_arg19)) := by
  have h : W5 m ρ c (Proc.devRef .tc main_v51)
      = shapeCast S1x128 (W4 m ρ c (Proc.devRef .tc main_arg19)) shapeCasts_S128_S1x128 := by
    show StableHlo.after hostOps2 (W4 m ρ c) (Proc.devRef .tc main_v51) = _
    after_results; rfl
  funext i
  rw [h]
  rw [back4 m ρ c (r := main_arg19) (by decide) (by decide) (by decide) (by decide)]
  exact shapeCast_row _ _ i

theorem p2_main_v52 : (fun i : (⟨1, ![128]⟩ : Shape).Idx => W5 m ρ c (Proc.devRef .tc main_v52) (ix2 (0 : Fin 1) (i 0)))
    = (m ((c : Thread nD τ).loc main_arg21)) := by
  have h : W5 m ρ c (Proc.devRef .tc main_v52)
      = shapeCast S1x128 (W4 m ρ c (Proc.devRef .tc main_arg21)) shapeCasts_S128_S1x128 := by
    show StableHlo.after hostOps2 (W4 m ρ c) (Proc.devRef .tc main_v52) = _
    after_results; rfl
  funext i
  rw [h]
  rw [back4 m ρ c (r := main_arg21) (by decide) (by decide) (by decide) (by decide)]
  exact shapeCast_row _ _ i

theorem p2_main_v53 : (fun i : (⟨1, ![128]⟩ : Shape).Idx => W5 m ρ c (Proc.devRef .tc main_v53) (ix2 (0 : Fin 1) (i 0)))
    = (m ((c : Thread nD τ).loc main_arg22)) := by
  have h : W5 m ρ c (Proc.devRef .tc main_v53)
      = shapeCast S1x128 (W4 m ρ c (Proc.devRef .tc main_arg22)) shapeCasts_S128_S1x128 := by
    show StableHlo.after hostOps2 (W4 m ρ c) (Proc.devRef .tc main_v53) = _
    after_results; rfl
  funext i
  rw [h]
  rw [back4 m ρ c (r := main_arg22) (by decide) (by decide) (by decide) (by decide)]
  exact shapeCast_row _ _ i

theorem p2_main_v54 : (fun i : (⟨1, ![128]⟩ : Shape).Idx => W5 m ρ c (Proc.devRef .tc main_v54) (ix2 (0 : Fin 1) (i 0)))
    = (m ((c : Thread nD τ).loc main_arg23)) := by
  have h : W5 m ρ c (Proc.devRef .tc main_v54)
      = shapeCast S1x128 (W4 m ρ c (Proc.devRef .tc main_arg23)) shapeCasts_S128_S1x128 := by
    show StableHlo.after hostOps2 (W4 m ρ c) (Proc.devRef .tc main_v54) = _
    after_results; rfl
  funext i
  rw [h]
  rw [back4 m ρ c (r := main_arg23) (by decide) (by decide) (by decide) (by decide)]
  exact shapeCast_row _ _ i

theorem p2_main_v55 : (fun i : (⟨1, ![128]⟩ : Shape).Idx => W5 m ρ c (Proc.devRef .tc main_v55) (ix2 (0 : Fin 1) (i 0)))
    = (m ((c : Thread nD τ).loc main_arg24)) := by
  have h : W5 m ρ c (Proc.devRef .tc main_v55)
      = shapeCast S1x128 (W4 m ρ c (Proc.devRef .tc main_arg24)) shapeCasts_S128_S1x128 := by
    show StableHlo.after hostOps2 (W4 m ρ c) (Proc.devRef .tc main_v55) = _
    after_results; rfl
  funext i
  rw [h]
  rw [back4 m ρ c (r := main_arg24) (by decide) (by decide) (by decide) (by decide)]
  exact shapeCast_row _ _ i

theorem p2_main_v56 : (fun i : (⟨1, ![128]⟩ : Shape).Idx => W5 m ρ c (Proc.devRef .tc main_v56) (ix2 (0 : Fin 1) (i 0)))
    = (m ((c : Thread nD τ).loc main_arg25)) := by
  have h : W5 m ρ c (Proc.devRef .tc main_v56)
      = shapeCast S1x128 (W4 m ρ c (Proc.devRef .tc main_arg25)) shapeCasts_S128_S1x128 := by
    show StableHlo.after hostOps2 (W4 m ρ c) (Proc.devRef .tc main_v56) = _
    after_results; rfl
  funext i
  rw [h]
  rw [back4 m ρ c (r := main_arg25) (by decide) (by decide) (by decide) (by decide)]
  exact shapeCast_row _ _ i

/-! ## Region 3: its parameters at its entry -/

theorem p3_main_arg26 : W7 m ρ c (Proc.devRef .tc main_arg26) = (m ((c : Thread nD τ).loc main_arg26)) :=
  (keep3 m ρ c (by decide)).trans (back6 m ρ c (r := main_arg26) (by decide) (by decide) (by decide) (by decide) (by decide) (by decide))

theorem p3_main_arg28 : W7 m ρ c (Proc.devRef .tc main_arg28) = (m ((c : Thread nD τ).loc main_arg28)) :=
  (keep3 m ρ c (by decide)).trans (back6 m ρ c (r := main_arg28) (by decide) (by decide) (by decide) (by decide) (by decide) (by decide))

theorem p3_main_arg34 : W7 m ρ c (Proc.devRef .tc main_arg34) = (m ((c : Thread nD τ).loc main_arg34)) :=
  (keep3 m ρ c (by decide)).trans (back6 m ρ c (r := main_arg34) (by decide) (by decide) (by decide) (by decide) (by decide) (by decide))

theorem p3_main_v69 : (fun i : (⟨1, ![64]⟩ : Shape).Idx => W7 m ρ c (Proc.devRef .tc main_v69) (ix2 (0 : Fin 1) (i 0)))
    = (m ((c : Thread nD τ).loc main_arg27)) := by
  have h : W7 m ρ c (Proc.devRef .tc main_v69)
      = shapeCast S1x64 (W6 m ρ c (Proc.devRef .tc main_arg27)) shapeCasts_S64_S1x64 := by
    show StableHlo.after hostOps3 (W6 m ρ c) (Proc.devRef .tc main_v69) = _
    after_results; rfl
  funext i
  rw [h]
  rw [back6 m ρ c (r := main_arg27) (by decide) (by decide) (by decide) (by decide) (by decide) (by decide)]
  exact shapeCast_row _ _ i

theorem p3_main_v70 : (fun i : (⟨1, ![64]⟩ : Shape).Idx => W7 m ρ c (Proc.devRef .tc main_v70) (ix2 (0 : Fin 1) (i 0)))
    = (m ((c : Thread nD τ).loc main_arg29)) := by
  have h : W7 m ρ c (Proc.devRef .tc main_v70)
      = shapeCast S1x64 (W6 m ρ c (Proc.devRef .tc main_arg29)) shapeCasts_S64_S1x64 := by
    show StableHlo.after hostOps3 (W6 m ρ c) (Proc.devRef .tc main_v70) = _
    after_results; rfl
  funext i
  rw [h]
  rw [back6 m ρ c (r := main_arg29) (by decide) (by decide) (by decide) (by decide) (by decide) (by decide)]
  exact shapeCast_row _ _ i

theorem p3_main_v71 : (fun i : (⟨1, ![64]⟩ : Shape).Idx => W7 m ρ c (Proc.devRef .tc main_v71) (ix2 (0 : Fin 1) (i 0)))
    = (m ((c : Thread nD τ).loc main_arg30)) := by
  have h : W7 m ρ c (Proc.devRef .tc main_v71)
      = shapeCast S1x64 (W6 m ρ c (Proc.devRef .tc main_arg30)) shapeCasts_S64_S1x64 := by
    show StableHlo.after hostOps3 (W6 m ρ c) (Proc.devRef .tc main_v71) = _
    after_results; rfl
  funext i
  rw [h]
  rw [back6 m ρ c (r := main_arg30) (by decide) (by decide) (by decide) (by decide) (by decide) (by decide)]
  exact shapeCast_row _ _ i

theorem p3_main_v72 : (fun i : (⟨1, ![64]⟩ : Shape).Idx => W7 m ρ c (Proc.devRef .tc main_v72) (ix2 (0 : Fin 1) (i 0)))
    = (m ((c : Thread nD τ).loc main_arg31)) := by
  have h : W7 m ρ c (Proc.devRef .tc main_v72)
      = shapeCast S1x64 (W6 m ρ c (Proc.devRef .tc main_arg31)) shapeCasts_S64_S1x64 := by
    show StableHlo.after hostOps3 (W6 m ρ c) (Proc.devRef .tc main_v72) = _
    after_results; rfl
  funext i
  rw [h]
  rw [back6 m ρ c (r := main_arg31) (by decide) (by decide) (by decide) (by decide) (by decide) (by decide)]
  exact shapeCast_row _ _ i

theorem p3_main_v73 : (fun i : (⟨1, ![64]⟩ : Shape).Idx => W7 m ρ c (Proc.devRef .tc main_v73) (ix2 (0 : Fin 1) (i 0)))
    = (m ((c : Thread nD τ).loc main_arg32)) := by
  have h : W7 m ρ c (Proc.devRef .tc main_v73)
      = shapeCast S1x64 (W6 m ρ c (Proc.devRef .tc main_arg32)) shapeCasts_S64_S1x64 := by
    show StableHlo.after hostOps3 (W6 m ρ c) (Proc.devRef .tc main_v73) = _
    after_results; rfl
  funext i
  rw [h]
  rw [back6 m ρ c (r := main_arg32) (by decide) (by decide) (by decide) (by decide) (by decide) (by decide)]
  exact shapeCast_row _ _ i

theorem p3_main_v74 : (fun i : (⟨1, ![64]⟩ : Shape).Idx => W7 m ρ c (Proc.devRef .tc main_v74) (ix2 (0 : Fin 1) (i 0)))
    = (m ((c : Thread nD τ).loc main_arg33)) := by
  have h : W7 m ρ c (Proc.devRef .tc main_v74)
      = shapeCast S1x64 (W6 m ρ c (Proc.devRef .tc main_arg33)) shapeCasts_S64_S1x64 := by
    show StableHlo.after hostOps3 (W6 m ρ c) (Proc.devRef .tc main_v74) = _
    after_results; rfl
  funext i
  rw [h]
  rw [back6 m ρ c (r := main_arg33) (by decide) (by decide) (by decide) (by decide) (by decide) (by decide)]
  exact shapeCast_row _ _ i

theorem p3_main_v75 : (fun i : (⟨1, ![2]⟩ : Shape).Idx => W7 m ρ c (Proc.devRef .tc main_v75) (ix2 (0 : Fin 1) (i 0)))
    = (m ((c : Thread nD τ).loc main_arg35)) := by
  have h : W7 m ρ c (Proc.devRef .tc main_v75)
      = shapeCast S1x2 (W6 m ρ c (Proc.devRef .tc main_arg35)) shapeCasts_S2_S1x2 := by
    show StableHlo.after hostOps3 (W6 m ρ c) (Proc.devRef .tc main_v75) = _
    after_results; rfl
  funext i
  rw [h]
  rw [back6 m ρ c (r := main_arg35) (by decide) (by decide) (by decide) (by decide) (by decide) (by decide)]
  exact shapeCast_row _ _ i

end Cert.KernelIdeal.Params

end
-- ==== Proof.KernelAgg.lean ====
/-
  The kernel program's neighbour aggregation.

  Before each region a stretch of host operations forms the region's first operand: the previous features plus
  their neighbour aggregate, z = h + segment_sum(h[src], dst), by a gather at the sources and a scatter-add at the
  destinations.  The sources and destinations are the two rows of the edge list, sliced once by the first stretch
  and read again by the later ones.  So each region's first operand, at the region's entry, is one and the same
  aggregation map (one per feature width) of the previous region's output.
-/
import proofs.«172044_j54296976556546_1_alg».proof.Proof.Gen.KernelIdeal.Frame
import proofs.«172044_j54296976556546_1_alg».proof.Proof.KernelParams

set_option maxRecDepth 16384

noncomputable section

namespace Cert.KerSide

open Cert.KernelIdeal Cert.KernelIdeal.Gen Cert.KernelIdeal.Params Idealize.ShloMosaic Idealize.ShloMosaic.TcCoe

/-! ## The aggregation, as the kernel program's host operations spell it -/

/-- The aggregation at feature width 256. -/
def agg256 (e : IVec S2x800000 32) (h : FVec Ideal S50000x256 .f32) : FVec Ideal S50000x256 .f32 :=
  addf h (Host.scatterAdd scatter_S50000x256_S800000x1_S800000x256_1_0_0_1 (broadcastInDim S50000x256 ![] bcast_S_S50000x256 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x256_S800000x1_S800000x256_1_0_n_n_0_1_1256 h (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000)))))

/-- The aggregation at feature width 128. -/
def agg128 (e : IVec S2x800000 32) (h : FVec Ideal S50000x128 .f32) : FVec Ideal S50000x128 .f32 :=
  addf h (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x128_S800000x1_S800000x128_1_0_n_n_0_1_1128 h (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000)))))

variable (m : (ℓ : Loc nD τ sig) → Buf (Elt Ideal) ℓ) (ρ : Dev nD → PrngReg) (c : Dev nD)

/-! ## Each region's first operand at its entry -/

/-- Region 0's first operand is the aggregation of the input features. -/
theorem z0 : W1 m ρ c (Proc.devRef .tc main_v14) = agg256 (m ((c : Thread nD τ).loc main_arg1)) (m ((c : Thread nD τ).loc main_arg0)) := by
  show StableHlo.after hostOps0 (W0 m ρ c) (Proc.devRef .tc main_v14) = _
  after_results_simp
  rfl

/-- Region 1's first operand is the aggregation of region 0's output. -/
theorem z1 : W3 m ρ c (Proc.devRef .tc main_v32) = agg128 (m ((c : Thread nD τ).loc main_arg1)) (W2 m ρ c (Proc.devRef .tc main_v21)) := by
  show StableHlo.after hostOps1 (W2 m ρ c) (Proc.devRef .tc main_v32) = _
  after_results_simp
  rw [src2 m ρ c, dst2 m ρ c]
  rfl

/-- Region 2's first operand is the aggregation of region 1's output. -/
theorem z2 : W5 m ρ c (Proc.devRef .tc main_v50) = agg256 (m ((c : Thread nD τ).loc main_arg1)) (W4 m ρ c (Proc.devRef .tc main_v39)) := by
  show StableHlo.after hostOps2 (W4 m ρ c) (Proc.devRef .tc main_v50) = _
  after_results_simp
  rw [src4 m ρ c, dst4 m ρ c]
  rfl

/-- Region 3's first operand is the aggregation of region 2's output. -/
theorem z3 : W7 m ρ c (Proc.devRef .tc main_v68) = agg128 (m ((c : Thread nD τ).loc main_arg1)) (W6 m ρ c (Proc.devRef .tc main_v57)) := by
  show StableHlo.after hostOps3 (W6 m ρ c) (Proc.devRef .tc main_v68) = _
  after_results_simp
  rw [src6 m ρ c, dst6 m ρ c]
  rfl

end Cert.KerSide

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LibDotGeneralAt.lean ====
/-
  A general fact about a host contraction, for any sizes.

  * dotGeneral_at: a host dot_general of a plain matrix product (rows × contracted axis, contracted axis ×
    columns), read at entry (r, c) at the ideal instance, is the sum over the contracted axis of
    lhs[r,k] · rhs[k,c], whatever the precision and the schedule key. It is the host-side companion of the
    same reading of a kernel's matrix product into the zero accumulator: the two sums are then literally the
    same sum over Fin K.
-/
import Idealize.ShloMosaic.PureOps.Ideal.Laws
import Idealize.ShloMosaic.Lib.ValueIdx

noncomputable section

namespace Cert.Lib.DotGeneralAt

open Idealize.ShloMosaic Idealize.ShloMosaic.ValueIdx

/-- A host dot_general of a plain matrix product, read at entry (r, c): the sum over the contracted axis of
    the row's entries times the column's. The four hypotheses name the coordinates of the operands' indices at
    an output index and a contraction index (for a printed dimension record: two by unfolding the index maps,
    two by the library's lhsIdx_val_of_single / rhsIdx_val_of_single). -/
theorem dotGeneral_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision) (sched : HostSchedule)
    (lhs : FVec Ideal ⟨2, ![n, K]⟩ φ₁) (rhs : FVec Ideal ⟨2, ![K, d]⟩ φ₂) (r : Fin n) (c : Fin d) :
    FloatOps.dotGeneral D prec sched lhs rhs (ix2 r c) = ∑ k : Fin K, lhs (ix2 r k) * rhs (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.DotGeneralAt

end
-- ==== Proof.PlainDot.lean ====
/-
  The plain matrix product's dimension numbers, and what a product with them reads at an entry.

  Every contraction of the two programs is a plain matrix product: rows × contracted axis times contracted axis ×
  columns, no batch axis.  IsPlain D says a dimension record D has those numbers.  Under it a kernel's product into
  the zero accumulator, and a host dot_general, both read at entry (r, c), at the ideal instance, as the same sum
  over the contracted axis of lhs[r,k] · rhs[k,c].
-/
import Idealize.ShloMosaic.PureOps.Ideal.Laws
import Idealize.ShloMosaic.Lib.ValueIdx
import proofs.«172044_j54296976556546_1_alg».proof.Proof.LibSplitContraction
import proofs.«172044_j54296976556546_1_alg».proof.Proof.LibDotGeneralAt

noncomputable section

namespace Cert.PlainDot

open Idealize.ShloMosaic Idealize.ShloMosaic.ValueIdx

/-- The dimension numbers of a plain matrix product: contract the left factor's axis 1 with the right factor's
    axis 0; the left factor's axis 0 and the right factor's axis 1 remain; no batch axis. -/
structure IsPlain {n K d : Nat} (D : DotDims ⟨2, ![n, K]⟩ ⟨2, ![K, d]⟩ ⟨2, ![n, d]⟩) : Prop where
  lc : D.lhsContracting = [1]
  rc : D.rhsContracting = [0]
  ln : D.lhsNonContracting = [0]
  rn : D.rhsNonContracting = [1]
  lb : D.lhsBatch = []
  rb : D.rhsBatch = []

/-- A kernel's plain product into the zero accumulator, read at (r, c): the sum over the contracted axis. -/
theorem matmul_at {n K d : Nat} {φ₁ φ₂ : FTy} (D : DotDims ⟨2, ![n, K]⟩ ⟨2, ![K, d]⟩ ⟨2, ![n, d]⟩) (h : IsPlain D)
    (prec : Option ContractPrecision) (lhs : FVec Ideal ⟨2, ![n, K]⟩ φ₁) (rhs : FVec Ideal ⟨2, ![K, d]⟩ φ₂)
    (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact Cert.Lib.SplitContraction.matmul_zero_at _ rfl rfl
    (fun j q => by
      unfold DotDims.lhsIdx
      rw [dif_neg (show ¬ (0 : Fin 2) ∈ ([] : List (Fin 2)) by decide),
        dif_pos (show (0 : Fin 2) ∈ ([0] : List (Fin 2)) by decide)]
      rfl)
    (fun j q => DotDims.lhsIdx_val_of_single _ rfl j q)
    (fun j q => DotDims.rhsIdx_val_of_single _ rfl j q)
    (fun j q => by
      unfold DotDims.rhsIdx
      rw [dif_neg (show ¬ (1 : Fin 2) ∈ ([] : List (Fin 2)) by decide),
        dif_pos (show (1 : Fin 2) ∈ ([1] : List (Fin 2)) by decide)]
      rfl)
    prec lhs rhs r c

/-- A host's plain dot_general, read at (r, c): the same sum over the contracted axis. -/
theorem dotGeneral_at {n K d : Nat} {φ₁ φ₂ : FTy} (D : DotDims ⟨2, ![n, K]⟩ ⟨2, ![K, d]⟩ ⟨2, ![n, d]⟩) (h : IsPlain D)
    (prec : Option ContractPrecision) (sched : HostSchedule) (lhs : FVec Ideal ⟨2, ![n, K]⟩ φ₁)
    (rhs : FVec Ideal ⟨2, ![K, d]⟩ φ₂) (r : Fin n) (c : Fin d) :
    FloatOps.dotGeneral D prec sched lhs rhs (ix2 r c) = ∑ k : Fin K, lhs (ix2 r k) * rhs (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact Cert.Lib.DotGeneralAt.dotGeneral_at _ rfl rfl
    (fun j q => by
      unfold DotDims.lhsIdx
      rw [dif_neg (show ¬ (0 : Fin 2) ∈ ([] : List (Fin 2)) by decide),
        dif_pos (show (0 : Fin 2) ∈ ([0] : List (Fin 2)) by decide)]
      rfl)
    (fun j q => DotDims.lhsIdx_val_of_single _ rfl j q)
    (fun j q => DotDims.rhsIdx_val_of_single _ rfl j q)
    (fun j q => by
      unfold DotDims.rhsIdx
      rw [dif_neg (show ¬ (1 : Fin 2) ∈ ([] : List (Fin 2)) by decide),
        dif_pos (show (1 : Fin 2) ∈ ([1] : List (Fin 2)) by decide)]
      rfl)
    prec sched lhs rhs r c

end Cert.PlainDot

end
-- ==== Proof.LayerBody.lean ====
/-
  The kernel body's arithmetic is one layer of the stack, for any sizes.

  A region's body loads a block of n rows of z, the two weight matrices and six one-row parameters, and stores

      max( ((((relu(z·wa + ba))·wb + bb) - m) * rsqrt(v + eps)) * g + be , 0 )

  with both products taken into the zero accumulator, the operands narrowed to a shorter float format first (the
  identity on the extended reals), and each one-row parameter repeated down the rows.  Entry by entry that is
  Spec.layer of the loaded block: the products are the sums over the contracted axis, a repeated row reads its
  entry at the column, and the rest is the same pointwise arithmetic.  The last region also applies the final affine
  map to the layer's output before storing.
-/
import Idealize.ShloMosaic.PureOps.Ideal.Laws
import Idealize.ShloMosaic.Lib.ValueIdx
import Idealize.ShloMosaic.Lib.Pipeline.Value
import proofs.«172044_j54296976556546_1_alg».proof.Proof.Spec
import proofs.«172044_j54296976556546_1_alg».proof.Proof.PlainDot

noncomputable section

namespace Cert.LayerBody

open Idealize.ShloMosaic Idealize.ShloMosaic.ValueIdx Cert.Spec Cert.PlainDot

/-- One row [1, d] repeated down n rows reads, at (p, q), the row's entry q. -/
theorem row_down {n d : Nat} (x : (⟨2, ![1, d]⟩ : Shape).Idx → EReal)
    (h : (⟨2, ![1, d]⟩ : Shape).Broadcasts ⟨2, ![n, d]⟩) (p : Fin n) (q : Fin d) :
    broadcastTo ⟨2, ![n, d]⟩ x h (ix2 p q) = x (ix2 (0 : Fin 1) q) :=
  broadcastTo_apply x h (ix2 p q) (ix2 (0 : Fin 1) q) (fun a => by
    match a with
    | ⟨0, _⟩ => rfl
    | ⟨1, _⟩ =>
      show q.val = if d = 1 then 0 else q.val
      split
      · have := q.isLt; omega
      · rfl)

/-- The body of a layer region, as the operations it applies to its loaded blocks, is the layer of the block. -/
theorem body_layer {n A B C : Nat}
    (D1 : DotDims ⟨2, ![n, A]⟩ ⟨2, ![A, B]⟩ ⟨2, ![n, B]⟩) (h1 : IsPlain D1)
    (D2 : DotDims ⟨2, ![n, B]⟩ ⟨2, ![B, C]⟩ ⟨2, ![n, C]⟩) (h2 : IsPlain D2)
    (hB : (⟨2, ![1, B]⟩ : Shape).Broadcasts ⟨2, ![n, B]⟩) (hC : (⟨2, ![1, C]⟩ : Shape).Broadcasts ⟨2, ![n, C]⟩)
    (t1 t2 t3 t4 : FTy.bf16.bits < FTy.f32.bits)
    (x0 : FVec Ideal ⟨2, ![n, A]⟩ .f32) (x1 : FVec Ideal ⟨2, ![A, B]⟩ .f32) (x2 : FVec Ideal ⟨2, ![1, B]⟩ .f32)
    (x3 : FVec Ideal ⟨2, ![B, C]⟩ .f32) (x4 x5 x6 x7 x8 : FVec Ideal ⟨2, ![1, C]⟩ .f32) :
    maximumf (addf (mulf (mulf (subf (addf
        (matmul D2 none
          (truncf .bf16 (maximumf (addf
            (matmul D1 none (truncf .bf16 x0 t1) (truncf .bf16 x1 t2) (constant ⟨2, ![n, B]⟩ .f32 0x00000000#32))
            (broadcastTo ⟨2, ![n, B]⟩ x2 hB)) (broadcast ⟨2, ![n, B]⟩ (FloatOps.ofBits (F := Ideal) .f32 0x00000000#32))) t3)
          (truncf .bf16 x3 t4) (constant ⟨2, ![n, C]⟩ .f32 0x00000000#32))
        (broadcastTo ⟨2, ![n, C]⟩ x4 hC))
        (broadcastTo ⟨2, ![n, C]⟩ x7 hC))
        (broadcastTo ⟨2, ![n, C]⟩ (rsqrt (addf x8 (broadcast ⟨2, ![1, C]⟩ (FloatOps.ofBits (F := Ideal) .f32 0x3727C5AC#32)))) hC))
        (broadcastTo ⟨2, ![n, C]⟩ x5 hC))
        (broadcastTo ⟨2, ![n, C]⟩ x6 hC))
      (broadcast ⟨2, ![n, C]⟩ (FloatOps.ofBits (F := Ideal) .f32 0x00000000#32))
    = layer x0 x1 (rowOf x2) x3 (rowOf x4) (rowOf x5) (rowOf x6) (rowOf x7) (rowOf x8) := by
  funext i
  obtain ⟨p, q, rfl⟩ : ∃ (p : Fin n) (q : Fin C), i = ix2 p q := ⟨i 0, i 1, eq_ix2 i⟩
  have m1 := fun lhs rhs r c => matmul_at (φ₁ := .bf16) (φ₂ := .bf16) D1 h1 none lhs rhs r c
  have m2 := fun lhs rhs r c => matmul_at (φ₁ := .bf16) (φ₂ := .bf16) D2 h2 none lhs rhs r c
  simp only [maximumf, addf, subf, mulf, rsqrt, broadcast, matmul, truncf, Ideal.truncf_def, m1, m2, row_down]
  simp only [layer, Spec.hidden, mm, rowOf, eps, Ideal.addf_def, Ideal.subf_def, Ideal.mulf_def, Ideal.maximumf_def,
    Ideal.rsqrt_def, Ideal.ofBits_def, Ideal.ofBits_zero_f32]
  rfl

/-- The last region's final step, as the operations it applies to the layer's output h and its loaded projection
    matrix and bias row, is the affine map of h. -/
theorem body_affine {n C D : Nat}
    (D3 : DotDims ⟨2, ![n, C]⟩ ⟨2, ![C, D]⟩ ⟨2, ![n, D]⟩) (h3 : IsPlain D3)
    (hD : (⟨2, ![1, D]⟩ : Shape).Broadcasts ⟨2, ![n, D]⟩) (t5 t6 : FTy.bf16.bits < FTy.f32.bits)
    (h : FVec Ideal ⟨2, ![n, C]⟩ .f32) (x9 : FVec Ideal ⟨2, ![C, D]⟩ .f32) (x10 : FVec Ideal ⟨2, ![1, D]⟩ .f32) :
    addf (matmul D3 none (truncf .bf16 h t5) (truncf .bf16 x9 t6) (constant ⟨2, ![n, D]⟩ .f32 0x00000000#32))
        (broadcastTo ⟨2, ![n, D]⟩ x10 hD)
      = affine h x9 (rowOf x10) := by
  funext i
  obtain ⟨p, q, rfl⟩ : ∃ (p : Fin n) (q : Fin D), i = ix2 p q := ⟨i 0, i 1, eq_ix2 i⟩
  have m3 := fun lhs rhs r c => matmul_at (φ₁ := .bf16) (φ₂ := .bf16) D3 h3 none lhs rhs r c
  simp only [addf, matmul, truncf, Ideal.truncf_def, m3, row_down]
  simp only [affine, mm, rowOf, Ideal.addf_def]
  rfl

end Cert.LayerBody

end
-- ==== Proof.Region0.lean ====
/-
  Region 0 of the idealized kernel program, as one function of the arrays it finds.

  The region runs its body at 25 grid points; at point t it loads rows 2000·t … 2000·t + 1999 of the feature matrix
  and the whole of every parameter array, and writes back rows 2000·t … 2000·t + 1999 of its output.  The body's
  arithmetic on a block is one layer of the stack, and an output entry depends on the features only through its own
  row, so the 25 written blocks are the restrictions of ONE whole-array function of the arrays as the region finds
  them; the blocks cover the output array, so after the region the output array IS that function.
-/
import proofs.«172044_j54296976556546_1_alg».proof.Proof.Gen.KernelIdeal.Frame
import proofs.«172044_j54296976556546_1_alg».proof.Proof.Spec
import proofs.«172044_j54296976556546_1_alg».proof.Proof.LayerBody

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The zero offset of a rectangle that is the whole block. -/
theorem hz : (![0, 0] : Fin 2 → Nat) = fun _ => 0 := funext fun a => by fin_cases a <;> rfl

/-- The body's stored value, as a function of its loaded blocks, is the layer of the feature block. -/
theorem pay_eq (x0 : Vec Ideal S2000x256 .f32) (x1 : Vec Ideal S256x128 .f32) (x2 : Vec Ideal S1x128 .f32) (x3 : Vec Ideal S128x128 .f32) (x4 x5 x6 x7 x8 : Vec Ideal S1x128 .f32) :
    k0_pay1 (F := Ideal) (k0_pay2 x0 x1 x2 x3 x4 x7 x8 x5) (k0_pay3 x6)
      = layer x0 x1 (rowOf x2) x3 (rowOf x4) (rowOf x5) (rowOf x6) (rowOf x7) (rowOf x8) := by
  unfold k0_pay1 k0_pay2 k0_pay3
  simp only [shapeCast_self]
  exact LayerBody.body_layer dot_S2000x256_S256x128_S2000x128_1_0_0_1_n_n ⟨rfl, rfl, rfl, rfl, rfl, rfl⟩
    dot_S2000x128_S128x128_S2000x128_1_0_0_1_n_n ⟨rfl, rfl, rfl, rfl, rfl, rfl⟩ _ _ _ _ _ _ x0 x1 x2 x3 x4 x5 x6 x7 x8

/-- What the output array holds after the region: the layer of the arrays as the region finds them. -/
def G (c : Dev nD) : S50000x128.Idx → EReal :=
  layer (V c main_v14) (V c main_arg2) (rowOf (V c main_v15)) (V c main_arg4) (rowOf (V c main_v16)) (rowOf (V c main_v17)) (rowOf (V c main_v18)) (rowOf (V c main_v19)) (rowOf (V c main_v20))

/-- The printed index maps over the grid: the feature window and the output window are at block row t, block column
    0; every parameter window is at block (0, 0). -/
theorem idx_facts : ∀ t : Fin cfg0.N, win0_0.index t (0 : Fin 2) = win0_9.index t (0 : Fin 2)
    ∧ win0_0.index t (1 : Fin 2) = 0
    ∧ win0_9.index t (1 : Fin 2) = 0
    ∧ win0_9.index t (0 : Fin 2) = t.val
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- A block read of any whole-array function g, at an index j of the block, is g at j's place in the array. -/
theorem read_at (g : S50000x128.Idx → EReal) (t : Fin cfg0.N) (j : ((cfg0.win 9).xblock (cfg0.grid.coords t)).Idx) :
    ((cfg0.win 9).blk t).view.read (Elt Ideal) g j = g (((cfg0.win 9).blk t).view.emb j) := rfl

set_option maxHeartbeats 4000000 in
/-- What point t writes back is block t of G. -/
theorem flushed_eq (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  unfold out0_9
  rw [View.canon_unit_zero hz]
  simp only [View.ld_unit_zero (S := S2000x256) hz, View.ld_unit_zero (S := S256x128) hz, View.ld_unit_zero (S := S1x128) hz, View.ld_unit_zero (S := S128x128) hz]
  rw [pay_eq]
  obtain ⟨f0, f1, f2, f3, hw1a, hw1b, hw2a, hw2b, hw3a, hw3b, hw4a, hw4b, hw5a, hw5b, hw6a, hw6b, hw7a, hw7b, hw8a, hw8b⟩ := idx_facts t
  have hw1 := And.intro hw1a hw1b
  have hw2 := And.intro hw2a hw2b
  have hw3 := And.intro hw3a hw3b
  have hw4 := And.intro hw4a hw4b
  have hw5 := And.intro hw5a hw5b
  have hw6 := And.intro hw6a hw6b
  have hw7 := And.intro hw7a hw7b
  have hw8 := And.intro hw8a hw8b
  have e1 : iblk0 V c 1 t = V c main_arg2 := by
    funext y
    show V c main_arg2 (((cfg0.win 1).blk t).view.emb y) = _
    refine congrArg _ (funext fun a => Fin.ext ?_)
    match a with
    | ⟨0, _⟩ => show win0_1.index t (0 : Fin 2) * 256 + 1 * (y 0).val = (y 0).val; rw [(hw1).1]; omega
    | ⟨1, _⟩ => show win0_1.index t (1 : Fin 2) * 128 + 1 * (y 1).val = (y 1).val; rw [(hw1).2]; omega
  have e2 : iblk0 V c 2 t = V c main_v15 := by
    funext y
    show V c main_v15 (((cfg0.win 2).blk t).view.emb y) = _
    refine congrArg _ (funext fun a => Fin.ext ?_)
    match a with
    | ⟨0, _⟩ => show win0_2.index t (0 : Fin 2) * 1 + 1 * (y 0).val = (y 0).val; rw [(hw2).1]; omega
    | ⟨1, _⟩ => show win0_2.index t (1 : Fin 2) * 128 + 1 * (y 1).val = (y 1).val; rw [(hw2).2]; omega
  have e3 : iblk0 V c 3 t = V c main_arg4 := by
    funext y
    show V c main_arg4 (((cfg0.win 3).blk t).view.emb y) = _
    refine congrArg _ (funext fun a => Fin.ext ?_)
    match a with
    | ⟨0, _⟩ => show win0_3.index t (0 : Fin 2) * 128 + 1 * (y 0).val = (y 0).val; rw [(hw3).1]; omega
    | ⟨1, _⟩ => show win0_3.index t (1 : Fin 2) * 128 + 1 * (y 1).val = (y 1).val; rw [(hw3).2]; omega
  have e4 : iblk0 V c 4 t = V c main_v16 := by
    funext y
    show V c main_v16 (((cfg0.win 4).blk t).view.emb y) = _
    refine congrArg _ (funext fun a => Fin.ext ?_)
    match a with
    | ⟨0, _⟩ => show win0_4.index t (0 : Fin 2) * 1 + 1 * (y 0).val = (y 0).val; rw [(hw4).1]; omega
    | ⟨1, _⟩ => show win0_4.index t (1 : Fin 2) * 128 + 1 * (y 1).val = (y 1).val; rw [(hw4).2]; omega
  have e5 : iblk0 V c 5 t = V c main_v17 := by
    funext y
    show V c main_v17 (((cfg0.win 5).blk t).view.emb y) = _
    refine congrArg _ (funext fun a => Fin.ext ?_)
    match a with
    | ⟨0, _⟩ => show win0_5.index t (0 : Fin 2) * 1 + 1 * (y 0).val = (y 0).val; rw [(hw5).1]; omega
    | ⟨1, _⟩ => show win0_5.index t (1 : Fin 2) * 128 + 1 * (y 1).val = (y 1).val; rw [(hw5).2]; omega
  have e6 : iblk0 V c 6 t = V c main_v18 := by
    funext y
    show V c main_v18 (((cfg0.win 6).blk t).view.emb y) = _
    refine congrArg _ (funext fun a => Fin.ext ?_)
    match a with
    | ⟨0, _⟩ => show win0_6.index t (0 : Fin 2) * 1 + 1 * (y 0).val = (y 0).val; rw [(hw6).1]; omega
    | ⟨1, _⟩ => show win0_6.index t (1 : Fin 2) * 128 + 1 * (y 1).val = (y 1).val; rw [(hw6).2]; omega
  have e7 : iblk0 V c 7 t = V c main_v19 := by
    funext y
    show V c main_v19 (((cfg0.win 7).blk t).view.emb y) = _
    refine congrArg _ (funext fun a => Fin.ext ?_)
    match a with
    | ⟨0, _⟩ => show win0_7.index t (0 : Fin 2) * 1 + 1 * (y 0).val = (y 0).val; rw [(hw7).1]; omega
    | ⟨1, _⟩ => show win0_7.index t (1 : Fin 2) * 128 + 1 * (y 1).val = (y 1).val; rw [(hw7).2]; omega
  have e8 : iblk0 V c 8 t = V c main_v20 := by
    funext y
    show V c main_v20 (((cfg0.win 8).blk t).view.emb y) = _
    refine congrArg _ (funext fun a => Fin.ext ?_)
    match a with
    | ⟨0, _⟩ => show win0_8.index t (0 : Fin 2) * 1 + 1 * (y 0).val = (y 0).val; rw [(hw8).1]; omega
    | ⟨1, _⟩ => show win0_8.index t (1 : Fin 2) * 128 + 1 * (y 1).val = (y 1).val; rw [(hw8).2]; omega
  rw [e1, e2, e3, e4, e5, e6, e7, e8]
  funext j
  refine Eq.trans ?_ (read_at (G V c) t j).symm
  unfold G
  refine layer_point (n := 2000) (n' := 50000) (A := 256) (B := 128) (C := 128) _ _ _ _ _ _ _ _ _ _ j _ ?_ ?_
  · show win0_9.index t (1 : Fin 2) * 128 + 1 * (j 1).val = (j 1).val
    rw [f2]; omega
  · intro k
    show V c main_v14 (((cfg0.win 0).blk t).view.emb _) = V c main_v14 _
    refine congrArg _ (funext fun a => Fin.ext ?_)
    match a with
    | ⟨0, _⟩ => show win0_0.index t (0 : Fin 2) * 2000 + 1 * (j 0).val = win0_9.index t (0 : Fin 2) * 2000 + 1 * (j 0).val; rw [f0]
    | ⟨1, _⟩ => show win0_0.index t (1 : Fin 2) * 256 + 1 * k.val = k.val; rw [f1]; omega

/-- An index of the output array is in point t's block iff each coordinate is in the block's range on its axis. -/
theorem mem_blk (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v21).slice (win0_9.rect t)).set ↔ _
  rw [View.set_slice_whole, Rect.mem_set_unit]
  exact Iff.rfl

/-- The 25 blocks cover the output array: row r is in the block of point r / 2000. -/
theorem cover (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have hN : grid0.N = 25 := N_0
  let t : Fin cfg0.N := ⟨(i 0).val / 2000, by show (i 0).val / 2000 < grid0.N; rw [hN]; omega⟩
  obtain ⟨f0, f1, f2, f3, hw1a, hw1b, hw2a, hw2b, hw3a, hw3b, hw4a, hw4b, hw5a, hw5b, hw6a, hw6b, hw7a, hw7b, hw8a, hw8b⟩ := idx_facts t
  refine ⟨t, flush0_9 t, ?_⟩
  rw [mem_blk]
  have ht : t.val = (i 0).val / 2000 := rfl
  intro a
  match a with
  | ⟨0, _⟩ => show win0_9.index t (0 : Fin 2) * 2000 ≤ (i 0).val ∧ (i 0).val < win0_9.index t (0 : Fin 2) * 2000 + 2000; rw [f3, ht]; omega
  | ⟨1, _⟩ => show win0_9.index t (1 : Fin 2) * 128 ≤ (i 1).val ∧ (i 1).val < win0_9.index t (1 : Fin 2) * 128 + 128; rw [f2]; omega

/-- After the region its output array is G of the arrays the region found. -/
theorem final (c : Dev nD) : (dat0 V c).arrAt 9 cfg0.N = G V c :=
  (dat0 V c).arrAt_eq_of_cover 9 (G V c) (fun t _ => flushed_eq V c t) (cover)

end Cert.KernelIdeal.Region0

end
-- ==== Proof.Region1.lean ====
/-
  Region 1 of the idealized kernel program, as one function of the arrays it finds.

  The region runs its body at 25 grid points; at point t it loads rows 2000·t … 2000·t + 1999 of the feature matrix
  and the whole of every parameter array, and writes back rows 2000·t … 2000·t + 1999 of its output.  The body's
  arithmetic on a block is one layer of the stack, and an output entry depends on the features only through its own
  row, so the 25 written blocks are the restrictions of ONE whole-array function of the arrays as the region finds
  them; the blocks cover the output array, so after the region the output array IS that function.
-/
import proofs.«172044_j54296976556546_1_alg».proof.Proof.Gen.KernelIdeal.Frame
import proofs.«172044_j54296976556546_1_alg».proof.Proof.Spec
import proofs.«172044_j54296976556546_1_alg».proof.Proof.LayerBody

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The zero offset of a rectangle that is the whole block. -/
theorem hz : (![0, 0] : Fin 2 → Nat) = fun _ => 0 := funext fun a => by fin_cases a <;> rfl

/-- The body's stored value, as a function of its loaded blocks, is the layer of the feature block. -/
theorem pay_eq (x0 : Vec Ideal S2000x128 .f32) (x1 : Vec Ideal S128x256 .f32) (x2 : Vec Ideal S1x256 .f32) (x3 : Vec Ideal S256x256 .f32) (x4 x5 x6 x7 x8 : Vec Ideal S1x256 .f32) :
    k1_pay1 (F := Ideal) (k1_pay2 x0 x1 x2 x3 x4 x7 x8 x5) (k1_pay3 x6)
      = layer x0 x1 (rowOf x2) x3 (rowOf x4) (rowOf x5) (rowOf x6) (rowOf x7) (rowOf x8) := by
  unfold k1_pay1 k1_pay2 k1_pay3
  simp only [shapeCast_self]
  exact LayerBody.body_layer dot_S2000x128_S128x256_S2000x256_1_0_0_1_n_n ⟨rfl, rfl, rfl, rfl, rfl, rfl⟩
    dot_S2000x256_S256x256_S2000x256_1_0_0_1_n_n ⟨rfl, rfl, rfl, rfl, rfl, rfl⟩ _ _ _ _ _ _ x0 x1 x2 x3 x4 x5 x6 x7 x8

/-- What the output array holds after the region: the layer of the arrays as the region finds them. -/
def G (c : Dev nD) : S50000x256.Idx → EReal :=
  layer (V c main_v32) (V c main_arg10) (rowOf (V c main_v33)) (V c main_arg12) (rowOf (V c main_v34)) (rowOf (V c main_v35)) (rowOf (V c main_v36)) (rowOf (V c main_v37)) (rowOf (V c main_v38))

/-- The printed index maps over the grid: the feature window and the output window are at block row t, block column
    0; every parameter window is at block (0, 0). -/
theorem idx_facts : ∀ t : Fin cfg1.N, win1_0.index t (0 : Fin 2) = win1_9.index t (0 : Fin 2)
    ∧ win1_0.index t (1 : Fin 2) = 0
    ∧ win1_9.index t (1 : Fin 2) = 0
    ∧ win1_9.index t (0 : Fin 2) = t.val
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0 :=
  (by decide +kernel : ∀ t : Fin grid1.N, _)

/-- A block read of any whole-array function g, at an index j of the block, is g at j's place in the array. -/
theorem read_at (g : S50000x256.Idx → EReal) (t : Fin cfg1.N) (j : ((cfg1.win 9).xblock (cfg1.grid.coords t)).Idx) :
    ((cfg1.win 9).blk t).view.read (Elt Ideal) g j = g (((cfg1.win 9).blk t).view.emb j) := rfl

set_option maxHeartbeats 4000000 in
/-- What point t writes back is block t of G. -/
theorem flushed_eq (c : Dev nD) (t : Fin cfg1.N) :
    (dat1 V c).flushed 9 t = ((cfg1.win 9).blk t).view.read (Elt Ideal) (G V c) := by
  show (cfg1.win 9).cut (grid1.coords t) ((dat1 V c).after 9 t) = _
  rw [after1_9]
  unfold out1_9
  rw [View.canon_unit_zero hz]
  simp only [View.ld_unit_zero (S := S2000x128) hz, View.ld_unit_zero (S := S128x256) hz, View.ld_unit_zero (S := S1x256) hz, View.ld_unit_zero (S := S256x256) hz]
  rw [pay_eq]
  obtain ⟨f0, f1, f2, f3, hw1a, hw1b, hw2a, hw2b, hw3a, hw3b, hw4a, hw4b, hw5a, hw5b, hw6a, hw6b, hw7a, hw7b, hw8a, hw8b⟩ := idx_facts t
  have hw1 := And.intro hw1a hw1b
  have hw2 := And.intro hw2a hw2b
  have hw3 := And.intro hw3a hw3b
  have hw4 := And.intro hw4a hw4b
  have hw5 := And.intro hw5a hw5b
  have hw6 := And.intro hw6a hw6b
  have hw7 := And.intro hw7a hw7b
  have hw8 := And.intro hw8a hw8b
  have e1 : iblk1 V c 1 t = V c main_arg10 := by
    funext y
    show V c main_arg10 (((cfg1.win 1).blk t).view.emb y) = _
    refine congrArg _ (funext fun a => Fin.ext ?_)
    match a with
    | ⟨0, _⟩ => show win1_1.index t (0 : Fin 2) * 128 + 1 * (y 0).val = (y 0).val; rw [(hw1).1]; omega
    | ⟨1, _⟩ => show win1_1.index t (1 : Fin 2) * 256 + 1 * (y 1).val = (y 1).val; rw [(hw1).2]; omega
  have e2 : iblk1 V c 2 t = V c main_v33 := by
    funext y
    show V c main_v33 (((cfg1.win 2).blk t).view.emb y) = _
    refine congrArg _ (funext fun a => Fin.ext ?_)
    match a with
    | ⟨0, _⟩ => show win1_2.index t (0 : Fin 2) * 1 + 1 * (y 0).val = (y 0).val; rw [(hw2).1]; omega
    | ⟨1, _⟩ => show win1_2.index t (1 : Fin 2) * 256 + 1 * (y 1).val = (y 1).val; rw [(hw2).2]; omega
  have e3 : iblk1 V c 3 t = V c main_arg12 := by
    funext y
    show V c main_arg12 (((cfg1.win 3).blk t).view.emb y) = _
    refine congrArg _ (funext fun a => Fin.ext ?_)
    match a with
    | ⟨0, _⟩ => show win1_3.index t (0 : Fin 2) * 256 + 1 * (y 0).val = (y 0).val; rw [(hw3).1]; omega
    | ⟨1, _⟩ => show win1_3.index t (1 : Fin 2) * 256 + 1 * (y 1).val = (y 1).val; rw [(hw3).2]; omega
  have e4 : iblk1 V c 4 t = V c main_v34 := by
    funext y
    show V c main_v34 (((cfg1.win 4).blk t).view.emb y) = _
    refine congrArg _ (funext fun a => Fin.ext ?_)
    match a with
    | ⟨0, _⟩ => show win1_4.index t (0 : Fin 2) * 1 + 1 * (y 0).val = (y 0).val; rw [(hw4).1]; omega
    | ⟨1, _⟩ => show win1_4.index t (1 : Fin 2) * 256 + 1 * (y 1).val = (y 1).val; rw [(hw4).2]; omega
  have e5 : iblk1 V c 5 t = V c main_v35 := by
    funext y
    show V c main_v35 (((cfg1.win 5).blk t).view.emb y) = _
    refine congrArg _ (funext fun a => Fin.ext ?_)
    match a with
    | ⟨0, _⟩ => show win1_5.index t (0 : Fin 2) * 1 + 1 * (y 0).val = (y 0).val; rw [(hw5).1]; omega
    | ⟨1, _⟩ => show win1_5.index t (1 : Fin 2) * 256 + 1 * (y 1).val = (y 1).val; rw [(hw5).2]; omega
  have e6 : iblk1 V c 6 t = V c main_v36 := by
    funext y
    show V c main_v36 (((cfg1.win 6).blk t).view.emb y) = _
    refine congrArg _ (funext fun a => Fin.ext ?_)
    match a with
    | ⟨0, _⟩ => show win1_6.index t (0 : Fin 2) * 1 + 1 * (y 0).val = (y 0).val; rw [(hw6).1]; omega
    | ⟨1, _⟩ => show win1_6.index t (1 : Fin 2) * 256 + 1 * (y 1).val = (y 1).val; rw [(hw6).2]; omega
  have e7 : iblk1 V c 7 t = V c main_v37 := by
    funext y
    show V c main_v37 (((cfg1.win 7).blk t).view.emb y) = _
    refine congrArg _ (funext fun a => Fin.ext ?_)
    match a with
    | ⟨0, _⟩ => show win1_7.index t (0 : Fin 2) * 1 + 1 * (y 0).val = (y 0).val; rw [(hw7).1]; omega
    | ⟨1, _⟩ => show win1_7.index t (1 : Fin 2) * 256 + 1 * (y 1).val = (y 1).val; rw [(hw7).2]; omega
  have e8 : iblk1 V c 8 t = V c main_v38 := by
    funext y
    show V c main_v38 (((cfg1.win 8).blk t).view.emb y) = _
    refine congrArg _ (funext fun a => Fin.ext ?_)
    match a with
    | ⟨0, _⟩ => show win1_8.index t (0 : Fin 2) * 1 + 1 * (y 0).val = (y 0).val; rw [(hw8).1]; omega
    | ⟨1, _⟩ => show win1_8.index t (1 : Fin 2) * 256 + 1 * (y 1).val = (y 1).val; rw [(hw8).2]; omega
  rw [e1, e2, e3, e4, e5, e6, e7, e8]
  funext j
  refine Eq.trans ?_ (read_at (G V c) t j).symm
  unfold G
  refine layer_point (n := 2000) (n' := 50000) (A := 128) (B := 256) (C := 256) _ _ _ _ _ _ _ _ _ _ j _ ?_ ?_
  · show win1_9.index t (1 : Fin 2) * 256 + 1 * (j 1).val = (j 1).val
    rw [f2]; omega
  · intro k
    show V c main_v32 (((cfg1.win 0).blk t).view.emb _) = V c main_v32 _
    refine congrArg _ (funext fun a => Fin.ext ?_)
    match a with
    | ⟨0, _⟩ => show win1_0.index t (0 : Fin 2) * 2000 + 1 * (j 0).val = win1_9.index t (0 : Fin 2) * 2000 + 1 * (j 0).val; rw [f0]
    | ⟨1, _⟩ => show win1_0.index t (1 : Fin 2) * 128 + 1 * k.val = k.val; rw [f1]; omega

/-- An index of the output array is in point t's block iff each coordinate is in the block's range on its axis. -/
theorem mem_blk (t : Fin cfg1.N) (i : S50000x256.Idx) :
    i ∈ ((cfg1.win 9).blk t).view.set ↔ ∀ a : Fin 2, win1_9.index t a * S2000x256.size a ≤ (i a).val ∧ (i a).val < win1_9.index t a * S2000x256.size a + S2000x256.size a := by
  show i ∈ ((View.whole main_v39).slice (win1_9.rect t)).set ↔ _
  rw [View.set_slice_whole, Rect.mem_set_unit]
  exact Iff.rfl

/-- The 25 blocks cover the output array: row r is in the block of point r / 2000. -/
theorem cover (i : S50000x256.Idx) : ∃ t : Fin cfg1.N, (cfg1.win 9).flush t = true ∧ i ∈ ((cfg1.win 9).blk t).view.set := by
  have hi0 : (i 0).val < 50000 := (i 0).isLt
  have hi1 : (i 1).val < 256 := (i 1).isLt
  have hN : grid1.N = 25 := N_1
  let t : Fin cfg1.N := ⟨(i 0).val / 2000, by show (i 0).val / 2000 < grid1.N; rw [hN]; omega⟩
  obtain ⟨f0, f1, f2, f3, hw1a, hw1b, hw2a, hw2b, hw3a, hw3b, hw4a, hw4b, hw5a, hw5b, hw6a, hw6b, hw7a, hw7b, hw8a, hw8b⟩ := idx_facts t
  refine ⟨t, flush1_9 t, ?_⟩
  rw [mem_blk]
  have ht : t.val = (i 0).val / 2000 := rfl
  intro a
  match a with
  | ⟨0, _⟩ => show win1_9.index t (0 : Fin 2) * 2000 ≤ (i 0).val ∧ (i 0).val < win1_9.index t (0 : Fin 2) * 2000 + 2000; rw [f3, ht]; omega
  | ⟨1, _⟩ => show win1_9.index t (1 : Fin 2) * 256 ≤ (i 1).val ∧ (i 1).val < win1_9.index t (1 : Fin 2) * 256 + 256; rw [f2]; omega

/-- After the region its output array is G of the arrays the region found. -/
theorem final (c : Dev nD) : (dat1 V c).arrAt 9 cfg1.N = G V c :=
  (dat1 V c).arrAt_eq_of_cover 9 (G V c) (fun t _ => flushed_eq V c t) (cover)

end Cert.KernelIdeal.Region1

end
-- ==== Proof.Region2.lean ====
/-
  Region 2 of the idealized kernel program, as one function of the arrays it finds.

  The region runs its body at 25 grid points; at point t it loads rows 2000·t … 2000·t + 1999 of the feature matrix
  and the whole of every parameter array, and writes back rows 2000·t … 2000·t + 1999 of its output.  The body's
  arithmetic on a block is one layer of the stack, and an output entry depends on the features only through its own
  row, so the 25 written blocks are the restrictions of ONE whole-array function of the arrays as the region finds
  them; the blocks cover the output array, so after the region the output array IS that function.
-/
import proofs.«172044_j54296976556546_1_alg».proof.Proof.Gen.KernelIdeal.Frame
import proofs.«172044_j54296976556546_1_alg».proof.Proof.Spec
import proofs.«172044_j54296976556546_1_alg».proof.Proof.LayerBody

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The zero offset of a rectangle that is the whole block. -/
theorem hz : (![0, 0] : Fin 2 → Nat) = fun _ => 0 := funext fun a => by fin_cases a <;> rfl

/-- The body's stored value, as a function of its loaded blocks, is the layer of the feature block. -/
theorem pay_eq (x0 : Vec Ideal S2000x256 .f32) (x1 : Vec Ideal S256x128 .f32) (x2 : Vec Ideal S1x128 .f32) (x3 : Vec Ideal S128x128 .f32) (x4 x5 x6 x7 x8 : Vec Ideal S1x128 .f32) :
    k2_pay1 (F := Ideal) (k2_pay2 x0 x1 x2 x3 x4 x7 x8 x5) (k2_pay3 x6)
      = layer x0 x1 (rowOf x2) x3 (rowOf x4) (rowOf x5) (rowOf x6) (rowOf x7) (rowOf x8) := by
  unfold k2_pay1 k2_pay2 k2_pay3
  simp only [shapeCast_self]
  exact LayerBody.body_layer dot_S2000x256_S256x128_S2000x128_1_0_0_1_n_n ⟨rfl, rfl, rfl, rfl, rfl, rfl⟩
    dot_S2000x128_S128x128_S2000x128_1_0_0_1_n_n ⟨rfl, rfl, rfl, rfl, rfl, rfl⟩ _ _ _ _ _ _ x0 x1 x2 x3 x4 x5 x6 x7 x8

/-- What the output array holds after the region: the layer of the arrays as the region finds them. -/
def G (c : Dev nD) : S50000x128.Idx → EReal :=
  layer (V c main_v50) (V c main_arg18) (rowOf (V c main_v51)) (V c main_arg20) (rowOf (V c main_v52)) (rowOf (V c main_v53)) (rowOf (V c main_v54)) (rowOf (V c main_v55)) (rowOf (V c main_v56))

/-- The printed index maps over the grid: the feature window and the output window are at block row t, block column
    0; every parameter window is at block (0, 0). -/
theorem idx_facts : ∀ t : Fin cfg2.N, win2_0.index t (0 : Fin 2) = win2_9.index t (0 : Fin 2)
    ∧ win2_0.index t (1 : Fin 2) = 0
    ∧ win2_9.index t (1 : Fin 2) = 0
    ∧ win2_9.index t (0 : Fin 2) = t.val
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0 :=
  (by decide +kernel : ∀ t : Fin grid2.N, _)

/-- A block read of any whole-array function g, at an index j of the block, is g at j's place in the array. -/
theorem read_at (g : S50000x128.Idx → EReal) (t : Fin cfg2.N) (j : ((cfg2.win 9).xblock (cfg2.grid.coords t)).Idx) :
    ((cfg2.win 9).blk t).view.read (Elt Ideal) g j = g (((cfg2.win 9).blk t).view.emb j) := rfl

set_option maxHeartbeats 4000000 in
/-- What point t writes back is block t of G. -/
theorem flushed_eq (c : Dev nD) (t : Fin cfg2.N) :
    (dat2 V c).flushed 9 t = ((cfg2.win 9).blk t).view.read (Elt Ideal) (G V c) := by
  show (cfg2.win 9).cut (grid2.coords t) ((dat2 V c).after 9 t) = _
  rw [after2_9]
  unfold out2_9
  rw [View.canon_unit_zero hz]
  simp only [View.ld_unit_zero (S := S2000x256) hz, View.ld_unit_zero (S := S256x128) hz, View.ld_unit_zero (S := S1x128) hz, View.ld_unit_zero (S := S128x128) hz]
  rw [pay_eq]
  obtain ⟨f0, f1, f2, f3, hw1a, hw1b, hw2a, hw2b, hw3a, hw3b, hw4a, hw4b, hw5a, hw5b, hw6a, hw6b, hw7a, hw7b, hw8a, hw8b⟩ := idx_facts t
  have hw1 := And.intro hw1a hw1b
  have hw2 := And.intro hw2a hw2b
  have hw3 := And.intro hw3a hw3b
  have hw4 := And.intro hw4a hw4b
  have hw5 := And.intro hw5a hw5b
  have hw6 := And.intro hw6a hw6b
  have hw7 := And.intro hw7a hw7b
  have hw8 := And.intro hw8a hw8b
  have e1 : iblk2 V c 1 t = V c main_arg18 := by
    funext y
    show V c main_arg18 (((cfg2.win 1).blk t).view.emb y) = _
    refine congrArg _ (funext fun a => Fin.ext ?_)
    match a with
    | ⟨0, _⟩ => show win2_1.index t (0 : Fin 2) * 256 + 1 * (y 0).val = (y 0).val; rw [(hw1).1]; omega
    | ⟨1, _⟩ => show win2_1.index t (1 : Fin 2) * 128 + 1 * (y 1).val = (y 1).val; rw [(hw1).2]; omega
  have e2 : iblk2 V c 2 t = V c main_v51 := by
    funext y
    show V c main_v51 (((cfg2.win 2).blk t).view.emb y) = _
    refine congrArg _ (funext fun a => Fin.ext ?_)
    match a with
    | ⟨0, _⟩ => show win2_2.index t (0 : Fin 2) * 1 + 1 * (y 0).val = (y 0).val; rw [(hw2).1]; omega
    | ⟨1, _⟩ => show win2_2.index t (1 : Fin 2) * 128 + 1 * (y 1).val = (y 1).val; rw [(hw2).2]; omega
  have e3 : iblk2 V c 3 t = V c main_arg20 := by
    funext y
    show V c main_arg20 (((cfg2.win 3).blk t).view.emb y) = _
    refine congrArg _ (funext fun a => Fin.ext ?_)
    match a with
    | ⟨0, _⟩ => show win2_3.index t (0 : Fin 2) * 128 + 1 * (y 0).val = (y 0).val; rw [(hw3).1]; omega
    | ⟨1, _⟩ => show win2_3.index t (1 : Fin 2) * 128 + 1 * (y 1).val = (y 1).val; rw [(hw3).2]; omega
  have e4 : iblk2 V c 4 t = V c main_v52 := by
    funext y
    show V c main_v52 (((cfg2.win 4).blk t).view.emb y) = _
    refine congrArg _ (funext fun a => Fin.ext ?_)
    match a with
    | ⟨0, _⟩ => show win2_4.index t (0 : Fin 2) * 1 + 1 * (y 0).val = (y 0).val; rw [(hw4).1]; omega
    | ⟨1, _⟩ => show win2_4.index t (1 : Fin 2) * 128 + 1 * (y 1).val = (y 1).val; rw [(hw4).2]; omega
  have e5 : iblk2 V c 5 t = V c main_v53 := by
    funext y
    show V c main_v53 (((cfg2.win 5).blk t).view.emb y) = _
    refine congrArg _ (funext fun a => Fin.ext ?_)
    match a with
    | ⟨0, _⟩ => show win2_5.index t (0 : Fin 2) * 1 + 1 * (y 0).val = (y 0).val; rw [(hw5).1]; omega
    | ⟨1, _⟩ => show win2_5.index t (1 : Fin 2) * 128 + 1 * (y 1).val = (y 1).val; rw [(hw5).2]; omega
  have e6 : iblk2 V c 6 t = V c main_v54 := by
    funext y
    show V c main_v54 (((cfg2.win 6).blk t).view.emb y) = _
    refine congrArg _ (funext fun a => Fin.ext ?_)
    match a with
    | ⟨0, _⟩ => show win2_6.index t (0 : Fin 2) * 1 + 1 * (y 0).val = (y 0).val; rw [(hw6).1]; omega
    | ⟨1, _⟩ => show win2_6.index t (1 : Fin 2) * 128 + 1 * (y 1).val = (y 1).val; rw [(hw6).2]; omega
  have e7 : iblk2 V c 7 t = V c main_v55 := by
    funext y
    show V c main_v55 (((cfg2.win 7).blk t).view.emb y) = _
    refine congrArg _ (funext fun a => Fin.ext ?_)
    match a with
    | ⟨0, _⟩ => show win2_7.index t (0 : Fin 2) * 1 + 1 * (y 0).val = (y 0).val; rw [(hw7).1]; omega
    | ⟨1, _⟩ => show win2_7.index t (1 : Fin 2) * 128 + 1 * (y 1).val = (y 1).val; rw [(hw7).2]; omega
  have e8 : iblk2 V c 8 t = V c main_v56 := by
    funext y
    show V c main_v56 (((cfg2.win 8).blk t).view.emb y) = _
    refine congrArg _ (funext fun a => Fin.ext ?_)
    match a with
    | ⟨0, _⟩ => show win2_8.index t (0 : Fin 2) * 1 + 1 * (y 0).val = (y 0).val; rw [(hw8).1]; omega
    | ⟨1, _⟩ => show win2_8.index t (1 : Fin 2) * 128 + 1 * (y 1).val = (y 1).val; rw [(hw8).2]; omega
  rw [e1, e2, e3, e4, e5, e6, e7, e8]
  funext j
  refine Eq.trans ?_ (read_at (G V c) t j).symm
  unfold G
  refine layer_point (n := 2000) (n' := 50000) (A := 256) (B := 128) (C := 128) _ _ _ _ _ _ _ _ _ _ j _ ?_ ?_
  · show win2_9.index t (1 : Fin 2) * 128 + 1 * (j 1).val = (j 1).val
    rw [f2]; omega
  · intro k
    show V c main_v50 (((cfg2.win 0).blk t).view.emb _) = V c main_v50 _
    refine congrArg _ (funext fun a => Fin.ext ?_)
    match a with
    | ⟨0, _⟩ => show win2_0.index t (0 : Fin 2) * 2000 + 1 * (j 0).val = win2_9.index t (0 : Fin 2) * 2000 + 1 * (j 0).val; rw [f0]
    | ⟨1, _⟩ => show win2_0.index t (1 : Fin 2) * 256 + 1 * k.val = k.val; rw [f1]; omega

/-- An index of the output array is in point t's block iff each coordinate is in the block's range on its axis. -/
theorem mem_blk (t : Fin cfg2.N) (i : S50000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v57).slice (win2_9.rect t)).set ↔ _
  rw [View.set_slice_whole, Rect.mem_set_unit]
  exact Iff.rfl

/-- The 25 blocks cover the output array: row r is in the block of point r / 2000. -/
theorem cover (i : S50000x128.Idx) : ∃ t : Fin cfg2.N, (cfg2.win 9).flush t = true ∧ i ∈ ((cfg2.win 9).blk t).view.set := by
  have hi0 : (i 0).val < 50000 := (i 0).isLt
  have hi1 : (i 1).val < 128 := (i 1).isLt
  have hN : grid2.N = 25 := N_2
  let t : Fin cfg2.N := ⟨(i 0).val / 2000, by show (i 0).val / 2000 < grid2.N; rw [hN]; omega⟩
  obtain ⟨f0, f1, f2, f3, hw1a, hw1b, hw2a, hw2b, hw3a, hw3b, hw4a, hw4b, hw5a, hw5b, hw6a, hw6b, hw7a, hw7b, hw8a, hw8b⟩ := idx_facts t
  refine ⟨t, flush2_9 t, ?_⟩
  rw [mem_blk]
  have ht : t.val = (i 0).val / 2000 := rfl
  intro a
  match a with
  | ⟨0, _⟩ => show win2_9.index t (0 : Fin 2) * 2000 ≤ (i 0).val ∧ (i 0).val < win2_9.index t (0 : Fin 2) * 2000 + 2000; rw [f3, ht]; omega
  | ⟨1, _⟩ => show win2_9.index t (1 : Fin 2) * 128 ≤ (i 1).val ∧ (i 1).val < win2_9.index t (1 : Fin 2) * 128 + 128; rw [f2]; omega

/-- After the region its output array is G of the arrays the region found. -/
theorem final (c : Dev nD) : (dat2 V c).arrAt 9 cfg2.N = G V c :=
  (dat2 V c).arrAt_eq_of_cover 9 (G V c) (fun t _ => flushed_eq V c t) (cover)

end Cert.KernelIdeal.Region2

end
-- ==== Proof.Region3.lean ====
/-
  Region 3 of the idealized kernel program, as one function of the arrays it finds.

  The region runs its body at 25 grid points; at point t it loads rows 2000·t … 2000·t + 1999 of the feature matrix
  and the whole of every parameter array, and writes back rows 2000·t … 2000·t + 1999 of its output.  The body's
  arithmetic on a block is a layer of the stack followed by the final affine map, and an output entry depends on the features only through its own
  row, so the 25 written blocks are the restrictions of ONE whole-array function of the arrays as the region finds
  them; the blocks cover the output array, so after the region the output array IS that function.
-/
import proofs.«172044_j54296976556546_1_alg».proof.Proof.Gen.KernelIdeal.Frame
import proofs.«172044_j54296976556546_1_alg».proof.Proof.Spec
import proofs.«172044_j54296976556546_1_alg».proof.Proof.LayerBody

set_option maxRecDepth 16384

noncomputable section

namespace Cert.KernelIdeal.Region3

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The zero offset of a rectangle that is the whole block. -/
theorem hz : (![0, 0] : Fin 2 → Nat) = fun _ => 0 := funext fun a => by fin_cases a <;> rfl

/-- The body's stored value, as a function of its loaded blocks, is the final affine map of the layer of the feature block. -/
theorem pay_eq (x0 : Vec Ideal S2000x128 .f32) (x1 : Vec Ideal S128x64 .f32) (x2 : Vec Ideal S1x64 .f32) (x3 : Vec Ideal S64x64 .f32) (x4 x5 x6 x7 x8 : Vec Ideal S1x64 .f32) (x9 : Vec Ideal S64x2 .f32) (x10 : Vec Ideal S1x2 .f32) :
    k3_pay1 (F := Ideal) (k3_pay2 x0 x1 x2 x3 x4 x7 x8 x5) (k3_pay3 x6) x9 x10
      = affine (layer x0 x1 (rowOf x2) x3 (rowOf x4) (rowOf x5) (rowOf x6) (rowOf x7) (rowOf x8)) x9 (rowOf x10) := by
  unfold k3_pay1 k3_pay2 k3_pay3
  simp only [shapeCast_self]
  exact (LayerBody.body_affine dot_S2000x64_S64x2_S2000x2_1_0_0_1_n_n ⟨rfl, rfl, rfl, rfl, rfl, rfl⟩ _ _ _ _ x9 x10).trans
    (congrArg (fun h => affine h x9 (rowOf x10))
      (LayerBody.body_layer dot_S2000x128_S128x64_S2000x64_1_0_0_1_n_n ⟨rfl, rfl, rfl, rfl, rfl, rfl⟩
        dot_S2000x64_S64x64_S2000x64_1_0_0_1_n_n ⟨rfl, rfl, rfl, rfl, rfl, rfl⟩ _ _ _ _ _ _ x0 x1 x2 x3 x4 x5 x6 x7 x8))

/-- What the output array holds after the region: the final affine map of the layer of the arrays as the region finds them. -/
def G (c : Dev nD) : S50000x2.Idx → EReal :=
  affine (layer (V c main_v68) (V c main_arg26) (rowOf (V c main_v69)) (V c main_arg28) (rowOf (V c main_v70)) (rowOf (V c main_v71)) (rowOf (V c main_v72)) (rowOf (V c main_v73)) (rowOf (V c main_v74))) (V c main_arg34) (rowOf (V c main_v75))

/-- The printed index maps over the grid: the feature window and the output window are at block row t, block column
    0; every parameter window is at block (0, 0). -/
theorem idx_facts : ∀ t : Fin cfg3.N, win3_0.index t (0 : Fin 2) = win3_11.index t (0 : Fin 2)
    ∧ win3_0.index t (1 : Fin 2) = 0
    ∧ win3_11.index t (1 : Fin 2) = 0
    ∧ win3_11.index t (0 : Fin 2) = t.val
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0 :=
  (by decide +kernel : ∀ t : Fin grid3.N, _)

/-- A block read of any whole-array function g, at an index j of the block, is g at j's place in the array. -/
theorem read_at (g : S50000x2.Idx → EReal) (t : Fin cfg3.N) (j : ((cfg3.win 11).xblock (cfg3.grid.coords t)).Idx) :
    ((cfg3.win 11).blk t).view.read (Elt Ideal) g j = g (((cfg3.win 11).blk t).view.emb j) := rfl

set_option maxHeartbeats 4000000 in
/-- What point t writes back is block t of G. -/
theorem flushed_eq (c : Dev nD) (t : Fin cfg3.N) :
    (dat3 V c).flushed 11 t = ((cfg3.win 11).blk t).view.read (Elt Ideal) (G V c) := by
  show (cfg3.win 11).cut (grid3.coords t) ((dat3 V c).after 11 t) = _
  rw [after3_11]
  unfold out3_11
  rw [View.canon_unit_zero hz]
  simp only [View.ld_unit_zero (S := S2000x128) hz, View.ld_unit_zero (S := S128x64) hz, View.ld_unit_zero (S := S1x64) hz, View.ld_unit_zero (S := S64x64) hz, View.ld_unit_zero (S := S64x2) hz, View.ld_unit_zero (S := S1x2) hz]
  rw [pay_eq]
  obtain ⟨f0, f1, f2, f3, hw1a, hw1b, hw2a, hw2b, hw3a, hw3b, hw4a, hw4b, hw5a, hw5b, hw6a, hw6b, hw7a, hw7b, hw8a, hw8b, hw9a, hw9b, hw10a, hw10b⟩ := idx_facts t
  have hw1 := And.intro hw1a hw1b
  have hw2 := And.intro hw2a hw2b
  have hw3 := And.intro hw3a hw3b
  have hw4 := And.intro hw4a hw4b
  have hw5 := And.intro hw5a hw5b
  have hw6 := And.intro hw6a hw6b
  have hw7 := And.intro hw7a hw7b
  have hw8 := And.intro hw8a hw8b
  have hw9 := And.intro hw9a hw9b
  have hw10 := And.intro hw10a hw10b
  have e1 : iblk3 V c 1 t = V c main_arg26 := by
    funext y
    show V c main_arg26 (((cfg3.win 1).blk t).view.emb y) = _
    refine congrArg _ (funext fun a => Fin.ext ?_)
    match a with
    | ⟨0, _⟩ => show win3_1.index t (0 : Fin 2) * 128 + 1 * (y 0).val = (y 0).val; rw [(hw1).1]; omega
    | ⟨1, _⟩ => show win3_1.index t (1 : Fin 2) * 64 + 1 * (y 1).val = (y 1).val; rw [(hw1).2]; omega
  have e2 : iblk3 V c 2 t = V c main_v69 := by
    funext y
    show V c main_v69 (((cfg3.win 2).blk t).view.emb y) = _
    refine congrArg _ (funext fun a => Fin.ext ?_)
    match a with
    | ⟨0, _⟩ => show win3_2.index t (0 : Fin 2) * 1 + 1 * (y 0).val = (y 0).val; rw [(hw2).1]; omega
    | ⟨1, _⟩ => show win3_2.index t (1 : Fin 2) * 64 + 1 * (y 1).val = (y 1).val; rw [(hw2).2]; omega
  have e3 : iblk3 V c 3 t = V c main_arg28 := by
    funext y
    show V c main_arg28 (((cfg3.win 3).blk t).view.emb y) = _
    refine congrArg _ (funext fun a => Fin.ext ?_)
    match a with
    | ⟨0, _⟩ => show win3_3.index t (0 : Fin 2) * 64 + 1 * (y 0).val = (y 0).val; rw [(hw3).1]; omega
    | ⟨1, _⟩ => show win3_3.index t (1 : Fin 2) * 64 + 1 * (y 1).val = (y 1).val; rw [(hw3).2]; omega
  have e4 : iblk3 V c 4 t = V c main_v70 := by
    funext y
    show V c main_v70 (((cfg3.win 4).blk t).view.emb y) = _
    refine congrArg _ (funext fun a => Fin.ext ?_)
    match a with
    | ⟨0, _⟩ => show win3_4.index t (0 : Fin 2) * 1 + 1 * (y 0).val = (y 0).val; rw [(hw4).1]; omega
    | ⟨1, _⟩ => show win3_4.index t (1 : Fin 2) * 64 + 1 * (y 1).val = (y 1).val; rw [(hw4).2]; omega
  have e5 : iblk3 V c 5 t = V c main_v71 := by
    funext y
    show V c main_v71 (((cfg3.win 5).blk t).view.emb y) = _
    refine congrArg _ (funext fun a => Fin.ext ?_)
    match a with
    | ⟨0, _⟩ => show win3_5.index t (0 : Fin 2) * 1 + 1 * (y 0).val = (y 0).val; rw [(hw5).1]; omega
    | ⟨1, _⟩ => show win3_5.index t (1 : Fin 2) * 64 + 1 * (y 1).val = (y 1).val; rw [(hw5).2]; omega
  have e6 : iblk3 V c 6 t = V c main_v72 := by
    funext y
    show V c main_v72 (((cfg3.win 6).blk t).view.emb y) = _
    refine congrArg _ (funext fun a => Fin.ext ?_)
    match a with
    | ⟨0, _⟩ => show win3_6.index t (0 : Fin 2) * 1 + 1 * (y 0).val = (y 0).val; rw [(hw6).1]; omega
    | ⟨1, _⟩ => show win3_6.index t (1 : Fin 2) * 64 + 1 * (y 1).val = (y 1).val; rw [(hw6).2]; omega
  have e7 : iblk3 V c 7 t = V c main_v73 := by
    funext y
    show V c main_v73 (((cfg3.win 7).blk t).view.emb y) = _
    refine congrArg _ (funext fun a => Fin.ext ?_)
    match a with
    | ⟨0, _⟩ => show win3_7.index t (0 : Fin 2) * 1 + 1 * (y 0).val = (y 0).val; rw [(hw7).1]; omega
    | ⟨1, _⟩ => show win3_7.index t (1 : Fin 2) * 64 + 1 * (y 1).val = (y 1).val; rw [(hw7).2]; omega
  have e8 : iblk3 V c 8 t = V c main_v74 := by
    funext y
    show V c main_v74 (((cfg3.win 8).blk t).view.emb y) = _
    refine congrArg _ (funext fun a => Fin.ext ?_)
    match a with
    | ⟨0, _⟩ => show win3_8.index t (0 : Fin 2) * 1 + 1 * (y 0).val = (y 0).val; rw [(hw8).1]; omega
    | ⟨1, _⟩ => show win3_8.index t (1 : Fin 2) * 64 + 1 * (y 1).val = (y 1).val; rw [(hw8).2]; omega
  have e9 : iblk3 V c 9 t = V c main_arg34 := by
    funext y
    show V c main_arg34 (((cfg3.win 9).blk t).view.emb y) = _
    refine congrArg _ (funext fun a => Fin.ext ?_)
    match a with
    | ⟨0, _⟩ => show win3_9.index t (0 : Fin 2) * 64 + 1 * (y 0).val = (y 0).val; rw [(hw9).1]; omega
    | ⟨1, _⟩ => show win3_9.index t (1 : Fin 2) * 2 + 1 * (y 1).val = (y 1).val; rw [(hw9).2]; omega
  have e10 : iblk3 V c 10 t = V c main_v75 := by
    funext y
    show V c main_v75 (((cfg3.win 10).blk t).view.emb y) = _
    refine congrArg _ (funext fun a => Fin.ext ?_)
    match a with
    | ⟨0, _⟩ => show win3_10.index t (0 : Fin 2) * 1 + 1 * (y 0).val = (y 0).val; rw [(hw10).1]; omega
    | ⟨1, _⟩ => show win3_10.index t (1 : Fin 2) * 2 + 1 * (y 1).val = (y 1).val; rw [(hw10).2]; omega
  rw [e1, e2, e3, e4, e5, e6, e7, e8, e9, e10]
  funext j
  refine Eq.trans ?_ (read_at (G V c) t j).symm
  unfold G
  refine affine_layer_point (n := 2000) (n' := 50000) (A := 128) (B := 64) (C := 64) (D := 2) _ _ _ _ _ _ _ _ _ _ _ _ j _ ?_ ?_
  · show win3_11.index t (1 : Fin 2) * 2 + 1 * (j 1).val = (j 1).val
    rw [f2]; omega
  · intro k
    show V c main_v68 (((cfg3.win 0).blk t).view.emb _) = V c main_v68 _
    refine congrArg _ (funext fun a => Fin.ext ?_)
    match a with
    | ⟨0, _⟩ => show win3_0.index t (0 : Fin 2) * 2000 + 1 * (j 0).val = win3_11.index t (0 : Fin 2) * 2000 + 1 * (j 0).val; rw [f0]
    | ⟨1, _⟩ => show win3_0.index t (1 : Fin 2) * 128 + 1 * k.val = k.val; rw [f1]; omega

/-- An index of the output array is in point t's block iff each coordinate is in the block's range on its axis. -/
theorem mem_blk (t : Fin cfg3.N) (i : S50000x2.Idx) :
    i ∈ ((cfg3.win 11).blk t).view.set ↔ ∀ a : Fin 2, win3_11.index t a * S2000x2.size a ≤ (i a).val ∧ (i a).val < win3_11.index t a * S2000x2.size a + S2000x2.size a := by
  show i ∈ ((View.whole main_v76).slice (win3_11.rect t)).set ↔ _
  rw [View.set_slice_whole, Rect.mem_set_unit]
  exact Iff.rfl

/-- The 25 blocks cover the output array: row r is in the block of point r / 2000. -/
theorem cover (i : S50000x2.Idx) : ∃ t : Fin cfg3.N, (cfg3.win 11).flush t = true ∧ i ∈ ((cfg3.win 11).blk t).view.set := by
  have hi0 : (i 0).val < 50000 := (i 0).isLt
  have hi1 : (i 1).val < 2 := (i 1).isLt
  have hN : grid3.N = 25 := N_3
  let t : Fin cfg3.N := ⟨(i 0).val / 2000, by show (i 0).val / 2000 < grid3.N; rw [hN]; omega⟩
  obtain ⟨f0, f1, f2, f3, hw1a, hw1b, hw2a, hw2b, hw3a, hw3b, hw4a, hw4b, hw5a, hw5b, hw6a, hw6b, hw7a, hw7b, hw8a, hw8b, hw9a, hw9b, hw10a, hw10b⟩ := idx_facts t
  refine ⟨t, flush3_11 t, ?_⟩
  rw [mem_blk]
  have ht : t.val = (i 0).val / 2000 := rfl
  intro a
  match a with
  | ⟨0, _⟩ => show win3_11.index t (0 : Fin 2) * 2000 ≤ (i 0).val ∧ (i 0).val < win3_11.index t (0 : Fin 2) * 2000 + 2000; rw [f3, ht]; omega
  | ⟨1, _⟩ => show win3_11.index t (1 : Fin 2) * 2 ≤ (i 1).val ∧ (i 1).val < win3_11.index t (1 : Fin 2) * 2 + 2; rw [f2]; omega

/-- After the region its output array is G of the arrays the region found. -/
theorem final (c : Dev nD) : (dat3 V c).arrAt 11 cfg3.N = G V c :=
  (dat3 V c).arrAt_eq_of_cover 11 (G V c) (fun t _ => flushed_eq V c t) (cover)

end Cert.KernelIdeal.Region3

end
-- ==== Proof.KernelValue.lean ====
/-
  The idealized kernel program's result, as a function of its arguments' launch contents.

  Follow the feature matrix through the program.  The first host stretch forms z₁ = x + aggregate(x); region 0
  leaves h₁ = layer(z₁; the first layer's parameters) in its output array; the next stretch forms
  z₂ = h₁ + aggregate(h₁) from that array, and so on through four regions, the last of which also applies the final
  affine map.  The parameter arrays each region reads are the launch arguments themselves (the one-row ones
  reshaped from vectors), since nothing before the region writes them.  Composed, the result buffer ends at the
  stack of the specification, at the program's own two aggregation maps.
-/
import proofs.«172044_j54296976556546_1_alg».proof.Proof.Gen.KernelIdeal.Frame
import proofs.«172044_j54296976556546_1_alg».proof.Proof.Spec
import proofs.«172044_j54296976556546_1_alg».proof.Proof.KernelRun
import proofs.«172044_j54296976556546_1_alg».proof.Proof.KernelParams
import proofs.«172044_j54296976556546_1_alg».proof.Proof.KernelAgg
import proofs.«172044_j54296976556546_1_alg».proof.Proof.Region0
import proofs.«172044_j54296976556546_1_alg».proof.Proof.Region1
import proofs.«172044_j54296976556546_1_alg».proof.Proof.Region2
import proofs.«172044_j54296976556546_1_alg».proof.Proof.Region3

set_option maxRecDepth 16384

noncomputable section

namespace Cert.KernelIdeal.KerValue

open Cert.KernelIdeal Cert.KernelIdeal.Gen Cert.KernelIdeal.Params Cert.Spec
open Idealize.ShloMosaic Idealize.ShloMosaic.TcCoe Idealize.ShloMosaic.ValueIdx
open Idealize.SL Idealize.SL.Sem

/-- Equal arguments give equal layers. -/
theorem layer_congr {n A B C : Nat} {z z' : (⟨2, ![n, A]⟩ : Shape).Idx → EReal} {wa wa' : (⟨2, ![A, B]⟩ : Shape).Idx → EReal}
    {ba ba' : (⟨1, ![B]⟩ : Shape).Idx → EReal} {wb wb' : (⟨2, ![B, C]⟩ : Shape).Idx → EReal}
    {bb bb' g g' be be' m m' v v' : (⟨1, ![C]⟩ : Shape).Idx → EReal}
    (h1 : z = z') (h2 : wa = wa') (h3 : ba = ba') (h4 : wb = wb') (h5 : bb = bb') (h6 : g = g') (h7 : be = be')
    (h8 : m = m') (h9 : v = v') : layer z wa ba wb bb g be m v = layer z' wa' ba' wb' bb' g' be' m' v' := by
  subst h1 h2 h3 h4 h5 h6 h7 h8 h9; rfl

/-- Equal arguments give equal affine maps. -/
theorem affine_congr {n C D : Nat} {h h' : (⟨2, ![n, C]⟩ : Shape).Idx → EReal} {wc wc' : (⟨2, ![C, D]⟩ : Shape).Idx → EReal}
    {bc bc' : (⟨1, ![D]⟩ : Shape).Idx → EReal} (h1 : h = h') (h2 : wc = wc') (h3 : bc = bc') :
    affine h wc bc = affine h' wc' bc' := by
  subst h1 h2 h3; rfl

variable (m : (ℓ : Loc nD τ sig) → Buf (Elt Ideal) ℓ) (ρ : Dev nD → PrngReg) (c : Dev nD)

/-- The features after the first, second and third layer, as functions of the launch contents. -/
def h1 : S50000x128.Idx → EReal :=
  layer (Cert.KerSide.agg256 (m ((c : Thread nD τ).loc main_arg1)) (m ((c : Thread nD τ).loc main_arg0))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
def h2 : S50000x256.Idx → EReal :=
  layer (Cert.KerSide.agg128 (m ((c : Thread nD τ).loc main_arg1)) (h1 m c)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
def h3 : S50000x128.Idx → EReal :=
  layer (Cert.KerSide.agg256 (m ((c : Thread nD τ).loc main_arg1)) (h2 m c)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

/-- Region 0 leaves the first layer's features in its output array. -/
theorem out0 : W2 m ρ c (Proc.devRef .tc main_v21) = h1 m c :=
  (W2_arr m ρ c 9).trans ((Cert.KernelIdeal.Region0.final (V1 m ρ) c).trans
    (layer_congr (Cert.KerSide.z0 m ρ c) (p0_main_arg2 m ρ c) (p0_main_v15 m ρ c) (p0_main_arg4 m ρ c) (p0_main_v16 m ρ c) (p0_main_v17 m ρ c) (p0_main_v18 m ρ c) (p0_main_v19 m ρ c) (p0_main_v20 m ρ c)))

/-- Region 1 leaves the second layer's features. -/
theorem out1 : W4 m ρ c (Proc.devRef .tc main_v39) = h2 m c :=
  (W4_arr m ρ c 9).trans ((Cert.KernelIdeal.Region1.final (V3 m ρ) c).trans
    (layer_congr ((Cert.KerSide.z1 m ρ c).trans (congrArg _ (out0 m ρ c))) (p1_main_arg10 m ρ c) (p1_main_v33 m ρ c) (p1_main_arg12 m ρ c) (p1_main_v34 m ρ c) (p1_main_v35 m ρ c) (p1_main_v36 m ρ c) (p1_main_v37 m ρ c) (p1_main_v38 m ρ c)))

/-- Region 2 leaves the third layer's features. -/
theorem out2 : W6 m ρ c (Proc.devRef .tc main_v57) = h3 m c :=
  (W6_arr m ρ c 9).trans ((Cert.KernelIdeal.Region2.final (V5 m ρ) c).trans
    (layer_congr ((Cert.KerSide.z2 m ρ c).trans (congrArg _ (out1 m ρ c))) (p2_main_arg18 m ρ c) (p2_main_v51 m ρ c) (p2_main_arg20 m ρ c) (p2_main_v52 m ρ c) (p2_main_v53 m ρ c) (p2_main_v54 m ρ c) (p2_main_v55 m ρ c) (p2_main_v56 m ρ c)))

/-- Region 3 leaves the fourth layer's features under the final affine map: the stack of the specification. -/
theorem result : W8 m ρ c (Proc.devRef .tc main_v76)
    = stack (Cert.KerSide.agg256 (m ((c : Thread nD τ).loc main_arg1))) (Cert.KerSide.agg128 (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) :=
  (W8_arr m ρ c 11).trans ((Cert.KernelIdeal.Region3.final (V7 m ρ) c).trans
    (affine_congr
      (layer_congr ((Cert.KerSide.z3 m ρ c).trans (congrArg _ (out2 m ρ c))) (p3_main_arg26 m ρ c) (p3_main_v69 m ρ c) (p3_main_arg28 m ρ c) (p3_main_v70 m ρ c) (p3_main_v71 m ρ c) (p3_main_v72 m ρ c) (p3_main_v73 m ρ c) (p3_main_v74 m ρ c))
      (p3_main_arg34 m ρ c) (p3_main_v75 m ρ c)))

/-- The program's run with its result named: every weakly fair execution terminates, nothing faulting, the result
    buffer at the stack of the specification of the launch arguments, the arguments unchanged. -/
theorem run : θ_run defs (onTc (τ := τ) (main (F := Ideal))) ⟨m, fun _ => 0, ρ⟩ (fun r => ∀ c : Dev nD,
      r.2.mem ((c.tc : Thread nD τ).loc main_v76)
        = stack (Cert.KerSide.agg256 (m ((c : Thread nD τ).loc main_arg1))) (Cert.KerSide.agg128 (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  (θ_run defs _ _).mono (fun r h c => ⟨(h c _ (mem_uc main_v76 (by decide))).trans (result m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c),
      (h c _ (mem_uc main_arg18 (by decide))).trans (W8_main_arg18 m ρ c),
      (h c _ (mem_uc main_arg19 (by decide))).trans (W8_main_arg19 m ρ c),
      (h c _ (mem_uc main_arg20 (by decide))).trans (W8_main_arg20 m ρ c),
      (h c _ (mem_uc main_arg21 (by decide))).trans (W8_main_arg21 m ρ c),
      (h c _ (mem_uc main_arg22 (by decide))).trans (W8_main_arg22 m ρ c),
      (h c _ (mem_uc main_arg23 (by decide))).trans (W8_main_arg23 m ρ c),
      (h c _ (mem_uc main_arg24 (by decide))).trans (W8_main_arg24 m ρ c),
      (h c _ (mem_uc main_arg25 (by decide))).trans (W8_main_arg25 m ρ c),
      (h c _ (mem_uc main_arg26 (by decide))).trans (W8_main_arg26 m ρ c),
      (h c _ (mem_uc main_arg27 (by decide))).trans (W8_main_arg27 m ρ c),
      (h c _ (mem_uc main_arg28 (by decide))).trans (W8_main_arg28 m ρ c),
      (h c _ (mem_uc main_arg29 (by decide))).trans (W8_main_arg29 m ρ c),
      (h c _ (mem_uc main_arg30 (by decide))).trans (W8_main_arg30 m ρ c),
      (h c _ (mem_uc main_arg31 (by decide))).trans (W8_main_arg31 m ρ c),
      (h c _ (mem_uc main_arg32 (by decide))).trans (W8_main_arg32 m ρ c),
      (h c _ (mem_uc main_arg33 (by decide))).trans (W8_main_arg33 m ρ c),
      (h c _ (mem_uc main_arg34 (by decide))).trans (W8_main_arg34 m ρ c),
      (h c _ (mem_uc main_arg35 (by decide))).trans (W8_main_arg35 m ρ c)⟩)
    (Cert.KernelIdeal.KerRun.run_all m ρ)

end Cert.KernelIdeal.KerValue

end
-- ==== Proof.LibHostRowColumn.lean ====
/-
  Two host layouts read at an index, for any sizes and any element type.

  * row_repeated: a vector of b entries made one row [1, b] (broadcast_in_dim along axis 1) and then repeated down
    a rows (broadcast_in_dim of [1, b] into [a, b]) reads, at (e, c), the vector's entry c: a bias vector added to
    every row of a matrix.
  * column_repeated: a vector of a entries made a column [a, 1] (broadcast_in_dim along axis 0) and then repeated
    across b columns reads, at (e, c), the vector's entry e: a row maximum subtracted from, or a row sum divided
    into, every entry of its row.
-/
import Idealize.ShloMosaic.Lib.Pipeline.Value
import Idealize.ShloMosaic.Lib.ValueIdx

namespace Cert.Lib.HostRowColumn

open Idealize.ShloMosaic Idealize.ShloMosaic.ValueIdx

variable {α : Type}

/-- A vector made one row and repeated down the rows reads, at (e, c), its entry c. -/
theorem row_repeated {a b : ℕ} (β : (⟨1, ![b]⟩ : Shape).Idx → α)
    (h : (⟨1, ![b]⟩ : Shape).BroadcastsInDim ⟨2, ![1, b]⟩ (![1] : Fin 1 → Fin 2))
    (h' : (⟨2, ![1, b]⟩ : Shape).BroadcastsInDim ⟨2, ![a, b]⟩ (![0, 1] : Fin 2 → Fin 2)) (e : Fin a) (c : Fin b) :
    broadcastInDim ⟨2, ![a, b]⟩ ![0, 1] h' (broadcastInDim ⟨2, ![1, b]⟩ ![1] h β) (ix2 e c) = β (ix1 c) :=
  (broadcastInDim_apply _ h' _ (ix2 e c) (ix2 (0 : Fin 1) c) (fun ax => by
    match ax with
    | ⟨0, _⟩ => rfl
    | ⟨1, _⟩ =>
      show c.val = if b = 1 then 0 else c.val
      split
      · have := c.isLt; omega
      · rfl)).trans
  (broadcastInDim_apply _ h β (ix2 (0 : Fin 1) c) (ix1 c) (fun ax => by
    match ax with
    | ⟨0, _⟩ =>
      show c.val = if b = 1 then 0 else c.val
      split
      · have := c.isLt; omega
      · rfl))

/-- A vector made a column and repeated across the columns reads, at (e, c), its entry e. -/
theorem column_repeated {a b : ℕ} (v : (⟨1, ![a]⟩ : Shape).Idx → α)
    (h : (⟨1, ![a]⟩ : Shape).BroadcastsInDim ⟨2, ![a, 1]⟩ (![0] : Fin 1 → Fin 2))
    (h' : (⟨2, ![a, 1]⟩ : Shape).BroadcastsInDim ⟨2, ![a, b]⟩ (![0, 1] : Fin 2 → Fin 2)) (e : Fin a) (c : Fin b) :
    broadcastInDim ⟨2, ![a, b]⟩ ![0, 1] h' (broadcastInDim ⟨2, ![a, 1]⟩ ![0] h v) (ix2 e c) = v (ix1 e) :=
  (broadcastInDim_apply _ h' _ (ix2 e c) (ix2 e (0 : Fin 1)) (fun ax => by
    match ax with
    | ⟨0, _⟩ =>
      show e.val = if a = 1 then 0 else e.val
      split
      · have := e.isLt; omega
      · rfl
    | ⟨1, _⟩ => rfl)).trans
  (broadcastInDim_apply _ h v (ix2 e (0 : Fin 1)) (ix1 e) (fun ax => by
    match ax with
    | ⟨0, _⟩ =>
      show e.val = if a = 1 then 0 else e.val
      split
      · have := e.isLt; omega
      · rfl))

end Cert.Lib.HostRowColumn
-- ==== Proof.RefValue.lean ====
/-
  The reference side: the value the reference program leaves in its result, as a function of its arguments'
  launch contents, is the stack of the specification (four layers, each fed the previous features plus their
  neighbour aggregate, then the final affine map), with the aggregation kept as the reference's own host
  operations.

  * hostLayer / hostLayer_eq: one layer as the host operations spell it (two host matrix products, the row
    vectors repeated down the rows, the zero and epsilon words broadcast from scalars) equals, entry by entry,
    the layer of the specification, for any sizes.
  * hostAffine / hostAffine_eq: the same for the final affine map.
  * agg256 / agg128: the neighbour aggregation h + segment_sum(h[src], dst) as the reference's operations.
  * ref_value: the reference's result is Cert.Spec.stack at agg256, agg128 and the 35 float arguments.
-/
import proofs.«172044_j54296976556546_1_alg».proof.Proof.Gen.ReferenceIdeal.Run
import proofs.«172044_j54296976556546_1_alg».proof.Proof.Spec
import proofs.«172044_j54296976556546_1_alg».proof.Proof.PlainDot
import proofs.«172044_j54296976556546_1_alg».proof.Proof.LibHostRowColumn

noncomputable section

namespace Cert.RefSide

open Idealize.ShloMosaic Idealize.ShloMosaic.ValueIdx

/-- A dimension record of a plain matrix product reads, at the ideal instance, as the sum over the contracted axis of
    row entries times column entries. -/
def ReadsAsProduct {n K d : Nat} (D : DotDims ⟨2, ![n, K]⟩ ⟨2, ![K, d]⟩ ⟨2, ![n, d]⟩) : Prop :=
  ∀ (lhs : FVec Ideal ⟨2, ![n, K]⟩ .f32) (rhs : FVec Ideal ⟨2, ![K, d]⟩ .f32) (r : Fin n) (c : Fin d),
    Host.dotGeneral D none lhs rhs (ix2 r c) = ∑ k : Fin K, lhs (ix2 r k) * rhs (ix2 k c)

/-- A plain matrix product's dimension record reads as the sum over the contracted axis. -/
theorem reads_of_plain {n K d : Nat} {D : DotDims ⟨2, ![n, K]⟩ ⟨2, ![K, d]⟩ ⟨2, ![n, d]⟩} (h : Cert.PlainDot.IsPlain D) :
    ReadsAsProduct D :=
  fun lhs rhs r c => Cert.PlainDot.dotGeneral_at D h none .single lhs rhs r c

section Layer

variable {n A B C : Nat}
  (D1 : DotDims ⟨2, ![n, A]⟩ ⟨2, ![A, B]⟩ ⟨2, ![n, B]⟩) (D2 : DotDims ⟨2, ![n, B]⟩ ⟨2, ![B, C]⟩ ⟨2, ![n, C]⟩)
  (hb1 : (⟨1, ![B]⟩ : Shape).BroadcastsInDim ⟨2, ![1, B]⟩ (![1] : Fin 1 → Fin 2))
  (hb2 : (⟨2, ![1, B]⟩ : Shape).BroadcastsInDim ⟨2, ![n, B]⟩ (![0, 1] : Fin 2 → Fin 2))
  (hc1 : (⟨1, ![C]⟩ : Shape).BroadcastsInDim ⟨2, ![1, C]⟩ (![1] : Fin 1 → Fin 2))
  (hc2 : (⟨2, ![1, C]⟩ : Shape).BroadcastsInDim ⟨2, ![n, C]⟩ (![0, 1] : Fin 2 → Fin 2))
  (h0B : (⟨0, ![]⟩ : Shape).BroadcastsInDim ⟨2, ![n, B]⟩ (![] : Fin 0 → Fin 2))
  (h0C : (⟨0, ![]⟩ : Shape).BroadcastsInDim ⟨2, ![n, C]⟩ (![] : Fin 0 → Fin 2))
  (h0c : (⟨0, ![]⟩ : Shape).BroadcastsInDim ⟨1, ![C]⟩ (![] : Fin 0 → Fin 1))

/-- One layer as the host operations spell it: two matrix products, the row vectors repeated down the rows, the
    zero and epsilon words broadcast from scalars. -/
def hostLayer (z : FVec Ideal ⟨2, ![n, A]⟩ .f32) (wa : FVec Ideal ⟨2, ![A, B]⟩ .f32) (ba : FVec Ideal ⟨1, ![B]⟩ .f32)
    (wb : FVec Ideal ⟨2, ![B, C]⟩ .f32) (bb g be m v : FVec Ideal ⟨1, ![C]⟩ .f32) : FVec Ideal ⟨2, ![n, C]⟩ .f32 :=
  maximumf (addf (mulf (mulf (subf (addf
    (Host.dotGeneral D2 none
      (maximumf
        (addf (Host.dotGeneral D1 none z wa)
          (broadcastInDim ⟨2, ![n, B]⟩ ![0, 1] hb2 (broadcastInDim ⟨2, ![1, B]⟩ ![1] hb1 ba)))
        (broadcastInDim ⟨2, ![n, B]⟩ ![] h0B (constant ⟨0, ![]⟩ .f32 0x00000000#32)))
      wb)
    (broadcastInDim ⟨2, ![n, C]⟩ ![0, 1] hc2 (broadcastInDim ⟨2, ![1, C]⟩ ![1] hc1 bb)))
    (broadcastInDim ⟨2, ![n, C]⟩ ![0, 1] hc2 (broadcastInDim ⟨2, ![1, C]⟩ ![1] hc1 m)))
    (broadcastInDim ⟨2, ![n, C]⟩ ![0, 1] hc2 (broadcastInDim ⟨2, ![1, C]⟩ ![1] hc1
      (Host.rsqrt (addf v (broadcastInDim ⟨1, ![C]⟩ ![] h0c (constant ⟨0, ![]⟩ .f32 0x3727C5AC#32)))))))
    (broadcastInDim ⟨2, ![n, C]⟩ ![0, 1] hc2 (broadcastInDim ⟨2, ![1, C]⟩ ![1] hc1 g)))
    (broadcastInDim ⟨2, ![n, C]⟩ ![0, 1] hc2 (broadcastInDim ⟨2, ![1, C]⟩ ![1] hc1 be)))
    (broadcastInDim ⟨2, ![n, C]⟩ ![] h0C (constant ⟨0, ![]⟩ .f32 0x00000000#32))

/-- The hidden activations as the host operations spell them, read at an entry. -/
theorem hostHidden_at (hD1 : ReadsAsProduct D1) (z : FVec Ideal ⟨2, ![n, A]⟩ .f32) (wa : FVec Ideal ⟨2, ![A, B]⟩ .f32)
    (ba : FVec Ideal ⟨1, ![B]⟩ .f32) (r : Fin n) (k : Fin B) :
    maximumf
        (addf (Host.dotGeneral D1 none z wa)
          (broadcastInDim ⟨2, ![n, B]⟩ ![0, 1] hb2 (broadcastInDim ⟨2, ![1, B]⟩ ![1] hb1 ba)))
        (broadcastInDim ⟨2, ![n, B]⟩ ![] h0B (constant ⟨0, ![]⟩ .f32 0x00000000#32)) (ix2 r k)
      = Cert.Spec.hidden z wa ba (ix2 r k) := by
  show max (Host.dotGeneral D1 none z wa (ix2 r k)
      + broadcastInDim ⟨2, ![n, B]⟩ ![0, 1] hb2 (broadcastInDim ⟨2, ![1, B]⟩ ![1] hb1 ba) (ix2 r k))
      (Ideal.ofBits .f32 0x00000000#32) = _
  rw [hD1, Cert.Lib.HostRowColumn.row_repeated, Ideal.ofBits_zero_f32]
  rfl

/-- One layer as the host operations spell it is the layer of the specification. -/
theorem hostLayer_eq (hD1 : ReadsAsProduct D1) (hD2 : ReadsAsProduct D2)
    (z : FVec Ideal ⟨2, ![n, A]⟩ .f32) (wa : FVec Ideal ⟨2, ![A, B]⟩ .f32) (ba : FVec Ideal ⟨1, ![B]⟩ .f32)
    (wb : FVec Ideal ⟨2, ![B, C]⟩ .f32) (bb g be m v : FVec Ideal ⟨1, ![C]⟩ .f32) :
    hostLayer D1 D2 hb1 hb2 hc1 hc2 h0B h0C h0c z wa ba wb bb g be m v = Cert.Spec.layer z wa ba wb bb g be m v := by
  funext i
  obtain ⟨r, q, rfl⟩ : ∃ (r : Fin n) (q : Fin C), i = ix2 r q := ⟨i 0, i 1, eq_ix2 i⟩
  show max ((((Host.dotGeneral D2 none
        (maximumf
          (addf (Host.dotGeneral D1 none z wa)
            (broadcastInDim ⟨2, ![n, B]⟩ ![0, 1] hb2 (broadcastInDim ⟨2, ![1, B]⟩ ![1] hb1 ba)))
          (broadcastInDim ⟨2, ![n, B]⟩ ![] h0B (constant ⟨0, ![]⟩ .f32 0x00000000#32))) wb (ix2 r q)
      + broadcastInDim ⟨2, ![n, C]⟩ ![0, 1] hc2 (broadcastInDim ⟨2, ![1, C]⟩ ![1] hc1 bb) (ix2 r q))
      - broadcastInDim ⟨2, ![n, C]⟩ ![0, 1] hc2 (broadcastInDim ⟨2, ![1, C]⟩ ![1] hc1 m) (ix2 r q))
      * broadcastInDim ⟨2, ![n, C]⟩ ![0, 1] hc2 (broadcastInDim ⟨2, ![1, C]⟩ ![1] hc1
          (Host.rsqrt (addf v (broadcastInDim ⟨1, ![C]⟩ ![] h0c (constant ⟨0, ![]⟩ .f32 0x3727C5AC#32))))) (ix2 r q))
      * broadcastInDim ⟨2, ![n, C]⟩ ![0, 1] hc2 (broadcastInDim ⟨2, ![1, C]⟩ ![1] hc1 g) (ix2 r q)
      + broadcastInDim ⟨2, ![n, C]⟩ ![0, 1] hc2 (broadcastInDim ⟨2, ![1, C]⟩ ![1] hc1 be) (ix2 r q))
      (Ideal.ofBits .f32 0x00000000#32) = _
  rw [hD2, Cert.Lib.HostRowColumn.row_repeated bb, Cert.Lib.HostRowColumn.row_repeated m,
    Cert.Lib.HostRowColumn.row_repeated g, Cert.Lib.HostRowColumn.row_repeated be,
    Cert.Lib.HostRowColumn.row_repeated (Host.rsqrt _), Ideal.ofBits_zero_f32,
    Finset.sum_congr rfl fun k _ => congrArg (· * wb (ix2 k q)) (hostHidden_at D1 hb1 hb2 h0B hD1 z wa ba r k)]
  rfl

end Layer

section Affine

variable {n C D : Nat} (D3 : DotDims ⟨2, ![n, C]⟩ ⟨2, ![C, D]⟩ ⟨2, ![n, D]⟩)
  (hd1 : (⟨1, ![D]⟩ : Shape).BroadcastsInDim ⟨2, ![1, D]⟩ (![1] : Fin 1 → Fin 2))
  (hd2 : (⟨2, ![1, D]⟩ : Shape).BroadcastsInDim ⟨2, ![n, D]⟩ (![0, 1] : Fin 2 → Fin 2))

/-- The final affine map as the host operations spell it. -/
def hostAffine (h : FVec Ideal ⟨2, ![n, C]⟩ .f32) (wc : FVec Ideal ⟨2, ![C, D]⟩ .f32) (bc : FVec Ideal ⟨1, ![D]⟩ .f32) :
    FVec Ideal ⟨2, ![n, D]⟩ .f32 :=
  addf (Host.dotGeneral D3 none h wc)
    (broadcastInDim ⟨2, ![n, D]⟩ ![0, 1] hd2 (broadcastInDim ⟨2, ![1, D]⟩ ![1] hd1 bc))

/-- The final affine map as the host operations spell it is the affine map of the specification. -/
theorem hostAffine_eq (hD3 : ReadsAsProduct D3) (h : FVec Ideal ⟨2, ![n, C]⟩ .f32) (wc : FVec Ideal ⟨2, ![C, D]⟩ .f32)
    (bc : FVec Ideal ⟨1, ![D]⟩ .f32) : hostAffine D3 hd1 hd2 h wc bc = Cert.Spec.affine h wc bc := by
  funext i
  obtain ⟨r, q, rfl⟩ : ∃ (r : Fin n) (q : Fin D), i = ix2 r q := ⟨i 0, i 1, eq_ix2 i⟩
  show Host.dotGeneral D3 none h wc (ix2 r q)
      + broadcastInDim ⟨2, ![n, D]⟩ ![0, 1] hd2 (broadcastInDim ⟨2, ![1, D]⟩ ![1] hd1 bc) (ix2 r q) = _
  rw [hD3, Cert.Lib.HostRowColumn.row_repeated]
  rfl

end Affine

end Cert.RefSide

namespace Cert.RefSide

open Cert.ReferenceIdeal Cert.ReferenceIdeal.Gen Idealize.ShloMosaic Idealize.ShloMosaic.ValueIdx Idealize.ShloMosaic.TcCoe
  Idealize.SL.Sem Idealize.ShloMosaic.StableHlo

/-! ## The neighbour aggregation, as the reference's operations spell it

z = h + segment_sum(h[src], dst): the edge list's second row (the destinations) indexes a scatter-add, into zeros, of
the rows gathered at the first row (the sources; a negative source is shifted up by the node count). -/

/-- The aggregation at feature width 256. -/
def agg256 (e : IVec S2x800000 32) (h : FVec Ideal S50000x256 .f32) : FVec Ideal S50000x256 .f32 :=
  addf h (Host.scatterAdd scatter_S50000x256_S800000x1_S800000x256_1_0_0_1 (broadcastInDim S50000x256 ![] bcast_S_S50000x256 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x256_S800000x1_S800000x256_1_0_n_n_0_1_1256 h (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000)))))

/-- The aggregation at feature width 128. -/
def agg128 (e : IVec S2x800000 32) (h : FVec Ideal S50000x128 .f32) : FVec Ideal S50000x128 .f32 :=
  addf h (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x128_S800000x1_S800000x128_1_0_n_n_0_1_1128 h (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000)))))

/-! ## The reference's value is the specification's stack -/

/-- The reference's result, as a function of the launch contents of its 36 arguments, is the stack of the
    specification at the reference's two aggregations. Every one of its seven matrix products has the plain
    dimension numbers; layers 1 and 3 have the same widths (256 → 128 → 128) and so the same records. -/
theorem ref_value (m : (ℓ : Loc nD τ sig) → Buf (Elt Ideal) ℓ) (c : Dev nD) :
    Cert.ReferenceIdeal.Value.res_main_v151 (F := Ideal) m c
      = Cert.Spec.stack (agg256 (m ((c.tc : Thread nD τ).loc main_arg1))) (agg128 (m ((c.tc : Thread nD τ).loc main_arg1)))
          (m ((c.tc : Thread nD τ).loc main_arg0))
          (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
          (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33))
          (m ((c.tc : Thread nD τ).loc main_arg34)) (m ((c.tc : Thread nD τ).loc main_arg35)) := by
  unfold Cert.Spec.stack
  rw [← hostAffine_eq dot_S50000x64_S64x2_S50000x2_1_0_0_1_n_n bcast_S2_S1x2_1 bcast_S1x2_S50000x2_0_1 (reads_of_plain ⟨rfl, rfl, rfl, rfl, rfl, rfl⟩),
    ← hostLayer_eq dot_S50000x128_S128x64_S50000x64_1_0_0_1_n_n dot_S50000x64_S64x64_S50000x64_1_0_0_1_n_n
      bcast_S64_S1x64_1 bcast_S1x64_S50000x64_0_1 bcast_S64_S1x64_1 bcast_S1x64_S50000x64_0_1
      bcast_S_S50000x64 bcast_S_S50000x64 bcast_S_S64 (reads_of_plain ⟨rfl, rfl, rfl, rfl, rfl, rfl⟩) (reads_of_plain ⟨rfl, rfl, rfl, rfl, rfl, rfl⟩),
    ← hostLayer_eq dot_S50000x128_S128x256_S50000x256_1_0_0_1_n_n dot_S50000x256_S256x256_S50000x256_1_0_0_1_n_n
      bcast_S256_S1x256_1 bcast_S1x256_S50000x256_0_1 bcast_S256_S1x256_1 bcast_S1x256_S50000x256_0_1
      bcast_S_S50000x256 bcast_S_S50000x256 bcast_S_S256 (reads_of_plain ⟨rfl, rfl, rfl, rfl, rfl, rfl⟩) (reads_of_plain ⟨rfl, rfl, rfl, rfl, rfl, rfl⟩),
    ← hostLayer_eq dot_S50000x256_S256x128_S50000x128_1_0_0_1_n_n dot_S50000x128_S128x128_S50000x128_1_0_0_1_n_n
      bcast_S128_S1x128_1 bcast_S1x128_S50000x128_0_1 bcast_S128_S1x128_1 bcast_S1x128_S50000x128_0_1
      bcast_S_S50000x128 bcast_S_S50000x128 bcast_S_S128 (reads_of_plain ⟨rfl, rfl, rfl, rfl, rfl, rfl⟩) (reads_of_plain ⟨rfl, rfl, rfl, rfl, rfl, rfl⟩),
    ← hostLayer_eq dot_S50000x256_S256x128_S50000x128_1_0_0_1_n_n dot_S50000x128_S128x128_S50000x128_1_0_0_1_n_n
      bcast_S128_S1x128_1 bcast_S1x128_S50000x128_0_1 bcast_S128_S1x128_1 bcast_S1x128_S50000x128_0_1
      bcast_S_S50000x128 bcast_S_S50000x128 bcast_S_S128 (reads_of_plain ⟨rfl, rfl, rfl, rfl, rfl, rfl⟩) (reads_of_plain ⟨rfl, rfl, rfl, rfl, rfl, rfl⟩)]
  rfl

end Cert.RefSide

end
-- ==== Proof.AggSame.lean ====
/-
  The two programs' neighbour aggregations are one map.

  Both spell z = h + segment_sum(h[src], dst) by the same operations over dimension records with the same
  numbers; the records' well-formedness fields and the layout side conditions are proofs, so the two definitions
  agree by unfolding.
-/
import proofs.«172044_j54296976556546_1_alg».proof.Proof.KernelAgg
import proofs.«172044_j54296976556546_1_alg».proof.Proof.RefValue

noncomputable section

namespace Cert.AggSame

/-- The aggregation at width 256 is the same map in the two programs. -/
theorem agg256_same : Cert.KerSide.agg256 = Cert.RefSide.agg256 := rfl

/-- The aggregation at width 128 is the same map in the two programs. -/
theorem agg128_same : Cert.KerSide.agg128 = Cert.RefSide.agg128 := rfl

end Cert.AggSame

end
-- ==== Proof.lean ====
/-
  Both programs compute one function of their arguments: the stack of Cert.Spec — four layers, each fed the previous
  features plus their neighbour aggregate, z = h + segment_sum(h[src], dst), each layer
  max((((relu(z · wa + ba) · wb + bb) - m) * rsqrt(v + eps)) * g + be, 0), then the affine map h · wc + bc.

  The kernel program's result is read off its four regions and the host stretches between them: a stretch forms the
  aggregate, a region applies one layer to blocks of rows (an entry of a layer depends on z only through its row), the
  last region also the affine map.  The reference's result is read off its run, operation by operation.  The
  aggregation is the same host operations, over dimension records with the same numbers, in both programs, so it is
  kept as it stands and never opened.  Beyond that the two sides differ only in the order of the sums over the
  contracted axes, which at the extended reals is immaterial; no other algebraic law is used, and the finiteness
  precondition is never opened.
-/
import proofs.«172044_j54296976556546_1_alg».proof.Defs
import proofs.«172044_j54296976556546_1_alg».proof.Proof.Gen.Kernel
import proofs.«172044_j54296976556546_1_alg».proof.Proof.Gen.Kernel.Skeleton
import proofs.«172044_j54296976556546_1_alg».proof.Proof.Gen.Kernel.Launch
import proofs.«172044_j54296976556546_1_alg».proof.Proof.Gen.Kernel.Points
import proofs.«172044_j54296976556546_1_alg».proof.Proof.Gen.Kernel.Frame
import proofs.«172044_j54296976556546_1_alg».proof.Proof.Gen.KernelIdeal
import proofs.«172044_j54296976556546_1_alg».proof.Proof.Gen.KernelIdeal.Skeleton
import proofs.«172044_j54296976556546_1_alg».proof.Proof.Gen.KernelIdeal.Launch
import proofs.«172044_j54296976556546_1_alg».proof.Proof.Gen.KernelIdeal.Points
import proofs.«172044_j54296976556546_1_alg».proof.Proof.Gen.KernelIdeal.Frame
import proofs.«172044_j54296976556546_1_alg».proof.Proof.Gen.ReferenceIdeal
import proofs.«172044_j54296976556546_1_alg».proof.Proof.Gen.Pre_finite_inputs
import proofs.«172044_j54296976556546_1_alg».proof.Proof.Gen.ReferenceIdeal.Run
import proofs.«172044_j54296976556546_1_alg».proof.Proof.Gen.ReferenceIdeal.Read
import Idealize.ShloMosaic.Adequacy
import Idealize.ShloMosaic.Init
import proofs.«172044_j54296976556546_1_alg».proof.Proof.KernelValue
import proofs.«172044_j54296976556546_1_alg».proof.Proof.RefValue
import proofs.«172044_j54296976556546_1_alg».proof.Proof.AggSame

noncomputable section

namespace Cert.Proof

open Idealize.ShloMosaic Idealize.SL.Sem

/-- The bit-exact kernel program runs and leaves its arguments unchanged. -/
theorem frame_p : Cert.frame_Kernel := fun m ρ _ => Cert.Kernel.Gen.frame m ρ

/-- The idealized kernel program runs and leaves its arguments unchanged. -/
theorem frame_pi : Cert.frame_KernelIdeal := fun m ρ _ => Cert.KernelIdeal.Gen.frame m ρ

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Equal arguments give equal stacks. -/
theorem stack_congr
    {a256 a256' : ((⟨2, ![50000, 256]⟩ : Shape).Idx → EReal) → ((⟨2, ![50000, 256]⟩ : Shape).Idx → EReal)}
    {a128 a128' : ((⟨2, ![50000, 128]⟩ : Shape).Idx → EReal) → ((⟨2, ![50000, 128]⟩ : Shape).Idx → EReal)}
    {x x' : (⟨2, ![50000, 256]⟩ : Shape).Idx → EReal}
    {w1a w1a' : (⟨2, ![256, 128]⟩ : Shape).Idx → EReal}
    {b1a b1a' : (⟨1, ![128]⟩ : Shape).Idx → EReal}
    {w1b w1b' : (⟨2, ![128, 128]⟩ : Shape).Idx → EReal}
    {b1b b1b' : (⟨1, ![128]⟩ : Shape).Idx → EReal}
    {g1 g1' : (⟨1, ![128]⟩ : Shape).Idx → EReal}
    {be1 be1' : (⟨1, ![128]⟩ : Shape).Idx → EReal}
    {m1 m1' : (⟨1, ![128]⟩ : Shape).Idx → EReal}
    {v1 v1' : (⟨1, ![128]⟩ : Shape).Idx → EReal}
    {w2a w2a' : (⟨2, ![128, 256]⟩ : Shape).Idx → EReal}
    {b2a b2a' : (⟨1, ![256]⟩ : Shape).Idx → EReal}
    {w2b w2b' : (⟨2, ![256, 256]⟩ : Shape).Idx → EReal}
    {b2b b2b' : (⟨1, ![256]⟩ : Shape).Idx → EReal}
    {g2 g2' : (⟨1, ![256]⟩ : Shape).Idx → EReal}
    {be2 be2' : (⟨1, ![256]⟩ : Shape).Idx → EReal}
    {m2 m2' : (⟨1, ![256]⟩ : Shape).Idx → EReal}
    {v2 v2' : (⟨1, ![256]⟩ : Shape).Idx → EReal}
    {w3a w3a' : (⟨2, ![256, 128]⟩ : Shape).Idx → EReal}
    {b3a b3a' : (⟨1, ![128]⟩ : Shape).Idx → EReal}
    {w3b w3b' : (⟨2, ![128, 128]⟩ : Shape).Idx → EReal}
    {b3b b3b' : (⟨1, ![128]⟩ : Shape).Idx → EReal}
    {g3 g3' : (⟨1, ![128]⟩ : Shape).Idx → EReal}
    {be3 be3' : (⟨1, ![128]⟩ : Shape).Idx → EReal}
    {m3 m3' : (⟨1, ![128]⟩ : Shape).Idx → EReal}
    {v3 v3' : (⟨1, ![128]⟩ : Shape).Idx → EReal}
    {w4a w4a' : (⟨2, ![128, 64]⟩ : Shape).Idx → EReal}
    {b4a b4a' : (⟨1, ![64]⟩ : Shape).Idx → EReal}
    {w4b w4b' : (⟨2, ![64, 64]⟩ : Shape).Idx → EReal}
    {b4b b4b' : (⟨1, ![64]⟩ : Shape).Idx → EReal}
    {g4 g4' : (⟨1, ![64]⟩ : Shape).Idx → EReal}
    {be4 be4' : (⟨1, ![64]⟩ : Shape).Idx → EReal}
    {m4 m4' : (⟨1, ![64]⟩ : Shape).Idx → EReal}
    {v4 v4' : (⟨1, ![64]⟩ : Shape).Idx → EReal}
    {wc wc' : (⟨2, ![64, 2]⟩ : Shape).Idx → EReal}
    {bc bc' : (⟨1, ![2]⟩ : Shape).Idx → EReal}
    (h0 : a256 = a256')
    (h1 : a128 = a128')
    (h2 : x = x')
    (h3 : w1a = w1a')
    (h4 : b1a = b1a')
    (h5 : w1b = w1b')
    (h6 : b1b = b1b')
    (h7 : g1 = g1')
    (h8 : be1 = be1')
    (h9 : m1 = m1')
    (h10 : v1 = v1')
    (h11 : w2a = w2a')
    (h12 : b2a = b2a')
    (h13 : w2b = w2b')
    (h14 : b2b = b2b')
    (h15 : g2 = g2')
    (h16 : be2 = be2')
    (h17 : m2 = m2')
    (h18 : v2 = v2')
    (h19 : w3a = w3a')
    (h20 : b3a = b3a')
    (h21 : w3b = w3b')
    (h22 : b3b = b3b')
    (h23 : g3 = g3')
    (h24 : be3 = be3')
    (h25 : m3 = m3')
    (h26 : v3 = v3')
    (h27 : w4a = w4a')
    (h28 : b4a = b4a')
    (h29 : w4b = w4b')
    (h30 : b4b = b4b')
    (h31 : g4 = g4')
    (h32 : be4 = be4')
    (h33 : m4 = m4')
    (h34 : v4 = v4')
    (h35 : wc = wc')
    (h36 : bc = bc') :
    Cert.Spec.stack a256 a128 x w1a b1a w1b b1b g1 be1 m1 v1 w2a b2a w2b b2b g2 be2 m2 v2 w3a b3a w3b b3b g3 be3 m3 v3 w4a b4a w4b b4b g4 be4 m4 v4 wc bc
      = Cert.Spec.stack a256' a128' x' w1a' b1a' w1b' b1b' g1' be1' m1' v1' w2a' b2a' w2b' b2b' g2' be2' m2' v2' w3a' b3a' w3b' b3b' g3' be3' m3' v3' w4a' b4a' w4b' b4b' g4' be4' m4' v4' wc' bc' := by
  subst h0 h1 h2 h3 h4 h5 h6 h7 h8 h9 h10 h11 h12 h13 h14 h15 h16 h17 h18 h19 h20 h21 h22 h23 h24 h25 h26 h27 h28 h29 h30 h31 h32 h33 h34 h35 h36
  rfl

/-- From memories that agree on the arguments both programs end at the stack of the specification of those
    arguments: the kernel program's at its own two aggregation maps, the reference's at its own, and the two pairs
    of maps are equal. -/
theorem algebraic : Cert.algebraic_KernelIdeal_ReferenceIdeal := by
  intro m ρ m' ρ' _ hagree
  refine ⟨fun c => (Cert.Spec.stack (Cert.KerSide.agg256 (m ((c.tc : Thread Cert.KernelIdeal.nD Cert.KernelIdeal.τ).loc Cert.KernelIdeal.main_arg1))) (Cert.KerSide.agg128 (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))), Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24, e25, e26, e27, e28, e29, e30, e31, e32, e33, e34, e35⟩ := hagree c
  refine (Cert.RefSide.ref_value m' c).trans (stack_congr ?_ ?_ e0 e2 e3 e4 e5 e6 e7 e8 e9 e10 e11 e12 e13 e14 e15 e16 e17 e18 e19 e20 e21 e22 e23 e24 e25 e26 e27 e28 e29 e30 e31 e32 e33 e34 e35)
  · rw [e1, ← Cert.AggSame.agg256_same]
  · rw [e1, ← Cert.AggSame.agg128_same]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
